-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S5000x128 : Shape := ⟨2, ![5000, 128]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S640000x64 : Shape := ⟨2, ![640000, 64]⟩
abbrev S1x64 : Shape := ⟨2, ![1, 64]⟩

abbrev nBuf : Space → Nat
  | .hbm => 168
  | .vmem => 42
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x640000, .i32⟩
  | 9 => ⟨S640000, .i32⟩
  | 10 => ⟨S1x640000, .i32⟩
  | 11 => ⟨S640000, .i32⟩
  | 12 => ⟨S50000x128, .f32⟩
  | 13 => ⟨S_, .f32⟩
  | 14 => ⟨S640000, .f32⟩
  | 15 => ⟨S_, .f32⟩
  | 16 => ⟨S50000, .f32⟩
  | 17 => ⟨S640000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S50000, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000, .f32⟩
  | 45 => ⟨S640000, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x128, .f32⟩
  | 55 => ⟨S640000x1, .f32⟩
  | 56 => ⟨S640000x128, .f32⟩
  | 57 => ⟨S640000x128, .f32⟩
  | 58 => ⟨S_, .f32⟩
  | 59 => ⟨S50000x128, .f32⟩
  | 60 => ⟨S640000x1, .i32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S640000, .f32⟩
  | 67 => ⟨S_, .f32⟩
  | 68 => ⟨S50000, .f32⟩
  | 69 => ⟨S640000x1, .i32⟩
  | 70 => ⟨S50000, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .f32⟩
  | 77 => ⟨S50000x1, .f32⟩
  | 78 => ⟨S50000, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000, .f32⟩
  | 97 => ⟨S640000, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S640000x1, .f32⟩
  | 108 => ⟨S640000x128, .f32⟩
  | 109 => ⟨S640000x128, .f32⟩
  | 110 => ⟨S_, .f32⟩
  | 111 => ⟨S50000x128, .f32⟩
  | 112 => ⟨S640000x1, .i32⟩
  | 113 => ⟨S50000x128, .f32⟩
  | 114 => ⟨S1x128, .f32⟩
  | 115 => ⟨S50000x128, .f32⟩
  | 116 => ⟨S50000x64, .f32⟩
  | 117 => ⟨S_, .f32⟩
  | 118 => ⟨S640000, .f32⟩
  | 119 => ⟨S_, .f32⟩
  | 120 => ⟨S50000, .f32⟩
  | 121 => ⟨S640000x1, .i32⟩
  | 122 => ⟨S50000, .f32⟩
  | 123 => ⟨S_, .f32⟩
  | 124 => ⟨S50000, .f32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S50000x1, .f32⟩
  | 2 => ⟨S50000, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000, .f32⟩
  | 21 => ⟨S640000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x64, .f32⟩
  | 31 => ⟨S640000x1, .f32⟩
  | 32 => ⟨S640000x64, .f32⟩
  | 33 => ⟨S640000x64, .f32⟩
  | 34 => ⟨S_, .f32⟩
  | 35 => ⟨S50000x64, .f32⟩
  | 36 => ⟨S640000x1, .i32⟩
  | 37 => ⟨S50000x64, .f32⟩
  | 38 => ⟨S1x64, .f32⟩
  | 39 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_15 : Ref sig .tc := ⟨.hbm, 88, rfl⟩
abbrev main_v63 : Ref sig .tc := ⟨.hbm, 89, rfl⟩
abbrev main_v64 : Ref sig .tc := ⟨.hbm, 90, rfl⟩
abbrev main_c_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_c_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_19 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_20 : Ref sig .tc := ⟨.hbm, 117, rfl⟩
abbrev main_v87 : Ref sig .tc := ⟨.hbm, 118, rfl⟩
abbrev main_cst_21 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_22 : Ref sig .tc := ⟨.hbm, 123, rfl⟩
abbrev main_v91 : Ref sig .tc := ⟨.hbm, 124, rfl⟩
abbrev main_v92 : Ref sig .tc := ⟨.hbm, 125, rfl⟩
abbrev main_cst_23 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_24 : Ref sig .tc := ⟨.hbm, 131, rfl⟩
abbrev main_v97 : Ref sig .tc := ⟨.hbm, 132, rfl⟩
abbrev main_v98 : Ref sig .tc := ⟨.hbm, 133, rfl⟩
abbrev main_c_25 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_26 : Ref sig .tc := ⟨.hbm, 140, rfl⟩
abbrev main_v104 : Ref sig .tc := ⟨.hbm, 141, rfl⟩
abbrev main_v105 : Ref sig .tc := ⟨.hbm, 142, rfl⟩
abbrev main_c_27 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_28 : Ref sig .tc := ⟨.hbm, 150, rfl⟩
abbrev main_v112 : Ref sig .tc := ⟨.hbm, 151, rfl⟩
abbrev main_v113 : Ref sig .tc := ⟨.hbm, 152, rfl⟩
abbrev main_c_29 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_30 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S640000x1_S640000x64_0_1 : S640000x1.BroadcastsInDim S640000x64 (![0, 1] : Fin 2 → Fin S640000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x64_S5000x64_1_0_0_1_n_n_wf : DotDims.WF S5000x128 S128x64 S5000x64 [1] [0] [0] [1] [] []
  gather_S50000x64_S640000x1_S640000x64_1_0_n_n_0_1_164_wf : GatherDims.WF S50000x64 S640000x1 S640000x64 [1] [0] [] [0] [] 1 ![1, 64]
  scatter_S50000x64_S640000x1_S640000x64_1_0_0_1_wf : ScatterDims.WF S50000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S640000x1_S640000x64_1_0_n_n_0_1_164 : GatherDims S50000x64 S640000x1 S640000x64 where
  offsetDims := [1]
  collapsedSliceDims := [0]
  operandBatchingDims := []
  startIndicesBatchingDims := []
  startIndexMap := [0]
  indexVectorDim := 1
  sliceSizes := ![1, 64]
  wf := gather_S50000x64_S640000x1_S640000x64_1_0_n_n_0_1_164_wf
def scatter_S50000x64_S640000x1_S640000x64_1_0_0_1 : ScatterDims S50000x64 S640000x1 S640000x64 where
  updateWindowDims := [1]
  insertedWindowDims := [0]
  scatterDimsToOperandDims := [0]
  indexVectorDim := 1
  wf := scatter_S50000x64_S640000x1_S640000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v85) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v124) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S50000x64 : Shape := ⟨2, ![50000, 64]⟩
abbrev S640000x64 : Shape := ⟨2, ![640000, 64]⟩
abbrev S1x64 : Shape := ⟨2, ![1, 64]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x640000, .i32⟩
  | 9 => ⟨S640000, .i32⟩
  | 10 => ⟨S1x640000, .i32⟩
  | 11 => ⟨S640000, .i32⟩
  | 12 => ⟨S50000x128, .f32⟩
  | 13 => ⟨S_, .f32⟩
  | 14 => ⟨S640000, .f32⟩
  | 15 => ⟨S_, .f32⟩
  | 16 => ⟨S50000, .f32⟩
  | 17 => ⟨S640000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000, .f32⟩
  | 41 => ⟨S640000, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x128, .f32⟩
  | 51 => ⟨S640000x1, .f32⟩
  | 52 => ⟨S640000x128, .f32⟩
  | 53 => ⟨S640000x128, .f32⟩
  | 54 => ⟨S_, .f32⟩
  | 55 => ⟨S50000x128, .f32⟩
  | 56 => ⟨S640000x1, .i32⟩
  | 57 => ⟨S50000x128, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .f32⟩
  | 73 => ⟨S640000, .f32⟩
  | 74 => ⟨S_, .f32⟩
  | 75 => ⟨S50000, .f32⟩
  | 76 => ⟨S640000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000, .f32⟩
  | 100 => ⟨S640000, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S640000x1, .f32⟩
  | 111 => ⟨S640000x128, .f32⟩
  | 112 => ⟨S640000x128, .f32⟩
  | 113 => ⟨S_, .f32⟩
  | 114 => ⟨S50000x128, .f32⟩
  | 115 => ⟨S640000x1, .i32⟩
  | 116 => ⟨S50000x128, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x64, .f32⟩
  | 3 => ⟨S_, .f32⟩
  | 4 => ⟨S640000, .f32⟩
  | 5 => ⟨S_, .f32⟩
  | 6 => ⟨S50000, .f32⟩
  | 7 => ⟨S640000x1, .i32⟩
  | 8 => ⟨S50000, .f32⟩
  | 9 => ⟨S_, .f32⟩
  | 10 => ⟨S50000, .f32⟩
  | 11 => ⟨S50000, .f32⟩
  | 12 => ⟨S50000, .f32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000, .f32⟩
  | 31 => ⟨S640000, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x64, .f32⟩
  | 41 => ⟨S640000x1, .f32⟩
  | 42 => ⟨S640000x64, .f32⟩
  | 43 => ⟨S640000x64, .f32⟩
  | 44 => ⟨S_, .f32⟩
  | 45 => ⟨S50000x64, .f32⟩
  | 46 => ⟨S640000x1, .i32⟩
  | 47 => ⟨S50000x64, .f32⟩
  | 48 => ⟨S_, .f32⟩
  | 49 => ⟨S50000, .f32⟩
  | 50 => ⟨S50000, .f32⟩
  | 51 => ⟨S50000x1, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_23 : Ref sig .tc := ⟨.hbm, 141, rfl⟩
abbrev main_v104 : Ref sig .tc := ⟨.hbm, 142, rfl⟩
abbrev main_v105 : Ref sig .tc := ⟨.hbm, 143, rfl⟩
abbrev main_c_24 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_25 : Ref sig .tc := ⟨.hbm, 150, rfl⟩
abbrev main_v111 : Ref sig .tc := ⟨.hbm, 151, rfl⟩
abbrev main_v112 : Ref sig .tc := ⟨.hbm, 152, rfl⟩
abbrev main_c_26 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_27 : Ref sig .tc := ⟨.hbm, 160, rfl⟩
abbrev main_v119 : Ref sig .tc := ⟨.hbm, 161, rfl⟩
abbrev main_v120 : Ref sig .tc := ⟨.hbm, 162, rfl⟩
abbrev main_c_28 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_29 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_30 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S640000x1_S640000x64_0_1 : S640000x1.BroadcastsInDim S640000x64 (![0, 1] : Fin 2 → Fin S640000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x64_S50000x64_1_0_0_1_n_n_wf : DotDims.WF S50000x128 S128x64 S50000x64 [1] [0] [0] [1] [] []
  gather_S50000x64_S640000x1_S640000x64_1_0_n_n_0_1_164_wf : GatherDims.WF S50000x64 S640000x1 S640000x64 [1] [0] [] [0] [] 1 ![1, 64]
  scatter_S50000x64_S640000x1_S640000x64_1_0_0_1_wf : ScatterDims.WF S50000x64 S640000x1 S640000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S640000x1_S640000x64_1_0_n_n_0_1_164 : GatherDims S50000x64 S640000x1 S640000x64 where
  offsetDims := [1]
  collapsedSliceDims := [0]
  operandBatchingDims := []
  startIndicesBatchingDims := []
  startIndexMap := [0]
  indexVectorDim := 1
  sliceSizes := ![1, 64]
  wf := gather_S50000x64_S640000x1_S640000x64_1_0_n_n_0_1_164_wf
def scatter_S50000x64_S640000x1_S640000x64_1_0_0_1 : ScatterDims S50000x64 S640000x1 S640000x64 where
  updateWindowDims := [1]
  insertedWindowDims := [0]
  scatterDimsToOperandDims := [0]
  indexVectorDim := 1
  wf := scatter_S50000x64_S640000x1_S640000x64_1_0_0_1_wf

class Facts : Prop extends Facts₀ where

variable [Facts]
-- ==== Proof.KernelRun.lean ====
/-
  The kernel program's run with its result named.

  The program is ten segments: a stretch of host operations, a region, a stretch, two regions, a stretch, two regions, a
  stretch, a region. The contents of every buffer at each segment boundary are a fold from the launch memory: a stretch
  applies its operations; a region leaves each of its arrays at what its write-backs leave and every other buffer as it
  found it. Every weakly fair execution runs through the ten segments and ends with every buffer at the last boundary's
  contents; so the result buffer ends at the last boundary's contents of the result buffer, and the arguments, which
  nothing writes, end as launched.
-/
import proofs.«122045_j38611755991794_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v126) = W10 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v126 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.Graph.lean ====
/-
  A stack of three graph-convolution layers on 50000 nodes and 640000 messages, written as functions of whole
  arrays on the extended reals.

  A message table `e` has two rows of words: row 0 the sources, row 1 the targets (`srcOf`, `dstOf`). A word below
  zero is moved up by 50000 before it addresses a node (`wrap`). The degree of a node is one plus the number of
  messages that target it (`degree`): a scatter-add of ones into zeros, then one more. A message from s to d is
  weighted by rsqrt(degree s) * rsqrt(degree d) (`weight`), and `spread128 h` / `spread64 h` add, into row d of a
  zero matrix, row s of `h` times that weight, for every message.

  One layer is: h = X W (`prod128`, `prod64`: entry (r, j) is the sum over k of X (r, k) * W (k, j)); then entry
  (r, j) of the result is (spread h (r, j) + h (r, j) * (1 / degree r)) + b j, and for the first two layers the
  larger of that and zero (`mix128`, `mix64`). `net` composes the three layers.

  Nothing here opens a gather or a scatter: both programs apply the same ones to the same operands, so they are
  carried as they stand.
-/
import proofs.«122045_j38611755991794_1_alg».proof.KernelIdeal
import proofs.«122045_j38611755991794_1_alg».proof.Proof.Gen.KernelIdeal
import Idealize.ShloMosaic.PureOps.Ideal.Laws
import Idealize.ShloMosaic.Lib.ValueIdx
import Idealize.ShloMosaic.Lib.Pipeline.Value

noncomputable section

open scoped BigOperators

namespace Cert.Gcn3

open Idealize.ShloMosaic Idealize.ShloMosaic.TcCoe Cert.KernelIdeal Cert.KernelIdeal.Facts₀

/-- An array of extended reals of shape `S`. -/
abbrev Mat (S : Shape) : Type := (⟨S, .f32⟩ : BufTy).Contents (Elt Ideal)
/-- An array of 32-bit words of shape `S`. -/
abbrev Words (S : Shape) : Type := (⟨S, .i32⟩ : BufTy).Contents (Elt Ideal)

/-! ## The message table -/

/-- Row 0 of the table: each message's source word. -/
def srcOf (e : Words S2x640000) : Words S640000 :=
  shapeCast _ (extractStridedSlice S1x640000 ![0, 0] e slices_S2x640000_S1x640000_0_0) shapeCasts_S1x640000_S640000

/-- Row 1 of the table: each message's target word. -/
def dstOf (e : Words S2x640000) : Words S640000 :=
  shapeCast _ (extractStridedSlice S1x640000 ![1, 0] e slices_S2x640000_S1x640000_1_0) shapeCasts_S1x640000_S640000

/-- A word below zero is moved up by the number of nodes. -/
def wrap (v : Words S640000) : Words S640000 :=
  select (cmpi .slt v (broadcastInDim S640000 ![] bcast_S_S640000 (constantI S_ 32 0#32)))
    (addi v (broadcastInDim S640000 ![] bcast_S_S640000 (constantI S_ 32 50000#32))) v

/-- A vector of words as a one-column matrix. -/
def colW (v : Words S640000) : Words S640000x1 := broadcastInDim S640000x1 ![0] bcast_S640000_S640000x1_0 v

/-- A vector of numbers as a one-column matrix. -/
def colF (v : Mat S640000) : Mat S640000x1 := broadcastInDim S640000x1 ![0] bcast_S640000_S640000x1_0 v

/-! ## Degrees and weights -/

/-- One plus the number of messages whose target word is the node. -/
def degree (d : Words S640000) : Mat S50000 :=
  addf (Host.scatterAdd (F := Ideal) scatter_S50000_S640000x1_S640000_n_0_0_1
      (broadcastInDim S50000 ![] bcast_S_S50000 (constant (F := Ideal) S_ .f32 0x00000000#32)) (colW d)
      (broadcastInDim S640000 ![] bcast_S_S640000 (constant (F := Ideal) S_ .f32 0x3F800000#32)))
    (broadcastInDim S50000 ![] bcast_S_S50000 (constant (F := Ideal) S_ .f32 0x3F800000#32))

/-- One over the degree. -/
def invDegree (d : Words S640000) : Mat S50000 :=
  Host.divf (F := Ideal) (broadcastInDim S50000 ![] bcast_S_S50000 (constant (F := Ideal) S_ .f32 0x3F800000#32)) (degree d)

/-- A message's weight: rsqrt of the degree at its source times rsqrt of the degree at its target. -/
def weight (s d : Words S640000) : Mat S640000 :=
  mulf (F := Ideal) (φ := .f32)
    (Host.gather gather_S50000_S640000x1_S640000_n_0_n_n_0_1_1 (Host.rsqrt (F := Ideal) (φ := .f32) (degree d)) (colW (wrap s)))
    (Host.gather gather_S50000_S640000x1_S640000_n_0_n_n_0_1_1 (Host.rsqrt (F := Ideal) (φ := .f32) (degree d)) (colW (wrap d)))

/-- Every message adds its source's row of `h`, times its weight, into its target's row of a zero matrix. -/
def spread128 (h : Mat S50000x128) (s d : Words S640000) : Mat S50000x128 :=
  Host.scatterAdd (F := Ideal) scatter_S50000x128_S640000x1_S640000x128_1_0_0_1
    (broadcastInDim S50000x128 ![] bcast_S_S50000x128 (constant (F := Ideal) S_ .f32 0x00000000#32)) (colW d)
    (mulf (Host.gather gather_S50000x128_S640000x1_S640000x128_1_0_n_n_0_1_1128 h (colW (wrap s)))
      (broadcastInDim S640000x128 ![0, 1] bcast_S640000x1_S640000x128_0_1 (colF (weight s d))))

/-- The same for rows of 64 features. -/
def spread64 (h : Mat S50000x64) (s d : Words S640000) : Mat S50000x64 :=
  Host.scatterAdd (F := Ideal) scatter_S50000x64_S640000x1_S640000x64_1_0_0_1
    (broadcastInDim S50000x64 ![] bcast_S_S50000x64 (constant (F := Ideal) S_ .f32 0x00000000#32)) (colW d)
    (mulf (Host.gather gather_S50000x64_S640000x1_S640000x64_1_0_n_n_0_1_164 h (colW (wrap s)))
      (broadcastInDim S640000x64 ![0, 1] bcast_S640000x1_S640000x64_0_1 (colF (weight s d))))

/-! ## The dense pieces, entry by entry -/

/-- Entry (r, k) of the left factor, for the entry (r, j) of a product with 128 columns. -/
abbrev lrow (i : S50000x128.Idx) (k : Fin 128) : S50000x128.Idx := fun a => match a with
  | ⟨0, _⟩ => ⟨(i 0).val, (i 0).isLt⟩
  | ⟨1, _⟩ => ⟨k.val, k.isLt⟩
/-- Entry (k, j) of the right factor, for the entry (r, j) of a product with 128 columns. -/
abbrev rcol (i : S50000x128.Idx) (k : Fin 128) : S128x128.Idx := fun a => match a with
  | ⟨0, _⟩ => ⟨k.val, k.isLt⟩
  | ⟨1, _⟩ => ⟨(i 1).val, (i 1).isLt⟩
/-- Entry (r, k) of the left factor, for the entry (r, j) of a product with 64 columns. -/
abbrev lrow64 (i : S50000x64.Idx) (k : Fin 128) : S50000x128.Idx := fun a => match a with
  | ⟨0, _⟩ => ⟨(i 0).val, (i 0).isLt⟩
  | ⟨1, _⟩ => ⟨k.val, k.isLt⟩
/-- Entry (k, j) of the right factor, for the entry (r, j) of a product with 64 columns. -/
abbrev rcol64 (i : S50000x64.Idx) (k : Fin 128) : S128x64.Idx := fun a => match a with
  | ⟨0, _⟩ => ⟨k.val, k.isLt⟩
  | ⟨1, _⟩ => ⟨(i 1).val, (i 1).isLt⟩

/-- X W for a 128 × 128 matrix W. -/
def prod128 (X : Mat S50000x128) (W : Mat S128x128) : Mat S50000x128 :=
  fun i => ∑ k : Fin 128, X (lrow i k) * W (rcol i k)

/-- X W for a 128 × 64 matrix W. -/
def prod64 (X : Mat S50000x128) (W : Mat S128x64) : Mat S50000x64 :=
  fun i => ∑ k : Fin 128, X (lrow64 i k) * W (rcol64 i k)

/-- The node of an entry. -/
abbrev nodeOf (i : S50000x128.Idx) : S50000.Idx := fun a => match a with
  | ⟨0, _⟩ => ⟨(i 0).val, (i 0).isLt⟩
/-- The feature of an entry. -/
abbrev featOf (i : S50000x128.Idx) : S128.Idx := fun a => match a with
  | ⟨0, _⟩ => ⟨(i 1).val, (i 1).isLt⟩
/-- The node of an entry, 64 features. -/
abbrev nodeOf64 (i : S50000x64.Idx) : S50000.Idx := fun a => match a with
  | ⟨0, _⟩ => ⟨(i 0).val, (i 0).isLt⟩
/-- The feature of an entry, 64 features. -/
abbrev featOf64 (i : S50000x64.Idx) : S64.Idx := fun a => match a with
  | ⟨0, _⟩ => ⟨(i 1).val, (i 1).isLt⟩

/-- (a + h * q at the node) + b at the feature, then the larger of that and zero. -/
def mix128 (a h : Mat S50000x128) (q : Mat S50000) (b : Mat S128) : Mat S50000x128 := fun i =>
  FloatOps.maximumf (F := Ideal) (φ := .f32)
    (FloatOps.addf (F := Ideal) (φ := .f32) (FloatOps.addf (F := Ideal) (φ := .f32) (a i) (FloatOps.mulf (F := Ideal) (φ := .f32) (h i) (q (nodeOf i)))) (b (featOf i)))
    (FloatOps.ofBits (F := Ideal) .f32 0x00000000#32)

/-- (a + h * q at the node) + b at the feature. -/
def mix64 (a h : Mat S50000x64) (q : Mat S50000) (b : Mat S64) : Mat S50000x64 := fun i =>
  FloatOps.addf (F := Ideal) (φ := .f32) (FloatOps.addf (F := Ideal) (φ := .f32) (a i) (FloatOps.mulf (F := Ideal) (φ := .f32) (h i) (q (nodeOf64 i)))) (b (featOf64 i))

/-! ## The layers and their composition -/

/-- A layer into 128 features, cut at zero. -/
def layer128 (x : Mat S50000x128) (e : Words S2x640000) (w : Mat S128x128) (b : Mat S128) : Mat S50000x128 :=
  mix128 (spread128 (prod128 x w) (srcOf e) (dstOf e)) (prod128 x w) (invDegree (dstOf e)) b

/-- The last layer, into 64 features. -/
def layer64 (x : Mat S50000x128) (e : Words S2x640000) (w : Mat S128x64) (b : Mat S64) : Mat S50000x64 :=
  mix64 (spread64 (prod64 x w) (srcOf e) (dstOf e)) (prod64 x w) (invDegree (dstOf e)) b

/-- The three layers. -/
def net (x : Mat S50000x128) (e : Words S2x640000) (w1 : Mat S128x128) (b1 : Mat S128) (w2 : Mat S128x128) (b2 : Mat S128)
    (w3 : Mat S128x64) (b3 : Mat S64) : Mat S50000x64 :=
  layer64 (layer128 (layer128 x e w1 b1) e w2 b2) e w3 b3

end Cert.Gcn3

end
-- ==== Proof.Blocks.lean ====
/-
  What one call of each kernel body leaves in its output block, entry by entry, on the extended reals.

  The product bodies: the two loaded blocks are only re-typed (a change of float format is the identity here) and
  multiplied into a zero accumulator, so entry (r, j) of the result is the sum over the 128 contracted positions k of
  (left block) (r, k) * (right block) (k, j).

  The closing bodies: entry (r, j) is (first block (r, j) + second block (r, j) * column block (r, 0)) + row block (0, j),
  and in the first two layers the larger of that and zero: the column block [5000, 1] is repeated along the columns,
  the row block [1, C] along the rows, and the re-casts to the same shape change nothing.
-/
import proofs.«122045_j38611755991794_1_alg».proof.Proof.Gen.KernelIdeal.Frame
import Idealize.ShloMosaic.PureOps.Ideal.Laws
import Idealize.ShloMosaic.Lib.ValueIdx
import Idealize.ShloMosaic.Lib.Pipeline.Value

noncomputable section

open scoped BigOperators

namespace Cert.Gcn3.Blocks

open Idealize.ShloMosaic Idealize.ShloMosaic.TcCoe Cert.KernelIdeal Cert.KernelIdeal.Gen

/-- The zero offsets of a whole-block access. -/
theorem hz : (![0, 0] : Fin 2 → Nat) = fun _ => 0 := funext fun a => by fin_cases a <;> rfl

/-! ## Positions inside a block -/

/-- Entry (r, k) of a [5000, 128] left block, for the entry (r, j) of a [5000, 128] result. -/
abbrev brow (j : S5000x128.Idx) (k : Fin 128) : S5000x128.Idx := fun a => match a with
  | ⟨0, _⟩ => ⟨(j 0).val, (j 0).isLt⟩
  | ⟨1, _⟩ => ⟨k.val, k.isLt⟩
/-- Entry (k, j) of the [128, 128] right block. -/
abbrev bcol (j : S5000x128.Idx) (k : Fin 128) : S128x128.Idx := fun a => match a with
  | ⟨0, _⟩ => ⟨k.val, k.isLt⟩
  | ⟨1, _⟩ => ⟨(j 1).val, (j 1).isLt⟩
/-- Entry (r, k) of a [5000, 128] left block, for the entry (r, j) of a [5000, 64] result. -/
abbrev brow64 (j : S5000x64.Idx) (k : Fin 128) : S5000x128.Idx := fun a => match a with
  | ⟨0, _⟩ => ⟨(j 0).val, (j 0).isLt⟩
  | ⟨1, _⟩ => ⟨k.val, k.isLt⟩
/-- Entry (k, j) of the [128, 64] right block. -/
abbrev bcol64 (j : S5000x64.Idx) (k : Fin 128) : S128x64.Idx := fun a => match a with
  | ⟨0, _⟩ => ⟨k.val, k.isLt⟩
  | ⟨1, _⟩ => ⟨(j 1).val, (j 1).isLt⟩
/-- Entry (r, 0) of a [5000, 1] column block. -/
abbrev inCol (j : S5000x128.Idx) : S5000x1.Idx := fun a => match a with
  | ⟨0, _⟩ => ⟨(j 0).val, (j 0).isLt⟩
  | ⟨1, _⟩ => ⟨0, Nat.one_pos⟩
/-- Entry (0, j) of a [1, 128] row block. -/
abbrev inRow (j : S5000x128.Idx) : S1x128.Idx := fun a => match a with
  | ⟨0, _⟩ => ⟨0, Nat.one_pos⟩
  | ⟨1, _⟩ => ⟨(j 1).val, (j 1).isLt⟩
/-- Entry (r, 0) of a [5000, 1] column block, 64 features. -/
abbrev inCol64 (j : S5000x64.Idx) : S5000x1.Idx := fun a => match a with
  | ⟨0, _⟩ => ⟨(j 0).val, (j 0).isLt⟩
  | ⟨1, _⟩ => ⟨0, Nat.one_pos⟩
/-- Entry (0, j) of a [1, 64] row block. -/
abbrev inRow64 (j : S5000x64.Idx) : S1x64.Idx := fun a => match a with
  | ⟨0, _⟩ => ⟨0, Nat.one_pos⟩
  | ⟨1, _⟩ => ⟨(j 1).val, (j 1).isLt⟩

/-! ## A block product into a zero accumulator is a sum over the contracted positions -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- [5000, 128] times [128, 128] into zeros, at an entry. -/
theorem mm128_apply {φ₁ φ₂ : FTy} (x0 : FVec Ideal S5000x128 φ₁) (x1 : FVec Ideal S128x128 φ₂) (j : S5000x128.Idx) :
    FloatOps.matmul dot_S5000x128_S128x128_S5000x128_1_0_0_1_n_n none x0 x1 (constant (F := Ideal) S5000x128 .f32 0x00000000#32) j
      = ∑ k : Fin 128, x0 (brow j k) * x1 (bcol j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs128_0 _ _).trans hk
    | ⟨1, _⟩ => exact rhs128_1 _ _)
  rw [el, er]

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- [5000, 128] times [128, 64] into zeros, at an entry. -/
theorem mm64_apply {φ₁ φ₂ : FTy} (x0 : FVec Ideal S5000x128 φ₁) (x1 : FVec Ideal S128x64 φ₂) (j : S5000x64.Idx) :
    FloatOps.matmul dot_S5000x128_S128x64_S5000x64_1_0_0_1_n_n none x0 x1 (constant (F := Ideal) S5000x64 .f32 0x00000000#32) j
      = ∑ k : Fin 128, x0 (brow64 j k) * x1 (bcol64 j k) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = brow64 j k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx j ((ValueIdx.contrEquiv1 dot_S5000x128_S128x64_S5000x64_1_0_0_1_n_n 128 rfl rfl).symm k) = bcol64 j k := funext fun a => Fin.ext (by
    match a with
    | ⟨0, _⟩ => exact (rhs64_0 _ _).trans hk
    | ⟨1, _⟩ => exact rhs64_1 _ _)
  rw [el, er]

/-! ## The product bodies -/

/-- The first product body's block. -/
theorem out0_2_apply (x0 : Vec Ideal S5000x128 .f32) (x1 : Vec Ideal S128x128 .f32) (j : S5000x128.Idx) :
    out0_2 (F := Ideal) x0 x1 j = ∑ k : Fin 128, x0 (brow j k) * x1 (bcol j k) := by
  unfold out0_2
  rw [View.canon_unit_zero hz]
  simp only [View.ld_unit_zero (S := S5000x128) hz, View.ld_unit_zero (S := S128x128) hz]
  unfold k0_pay1
  exact mm128_apply _ _ j

/-- The second product body's block (its left block is first re-cast to its own shape). -/
theorem out2_2_apply (x0 : Vec Ideal S5000x128 .f32) (x1 : Vec Ideal S128x128 .f32) (j : S5000x128.Idx) :
    out2_2 (F := Ideal) x0 x1 j = ∑ k : Fin 128, x0 (brow j k) * x1 (bcol j k) := by
  unfold out2_2
  rw [View.canon_unit_zero hz]
  simp only [View.ld_unit_zero (S := S5000x128) hz, View.ld_unit_zero (S := S128x128) hz]
  unfold k2_pay1
  rw [shapeCast_self]
  exact mm128_apply _ _ j

/-- The third product body's block. -/
theorem out4_2_apply (x0 : Vec Ideal S5000x128 .f32) (x1 : Vec Ideal S128x64 .f32) (j : S5000x64.Idx) :
    out4_2 (F := Ideal) x0 x1 j = ∑ k : Fin 128, x0 (brow64 j k) * x1 (bcol64 j k) := by
  unfold out4_2
  rw [View.canon_unit_zero hz]
  simp only [View.ld_unit_zero (S := S5000x128) hz, View.ld_unit_zero (S := S128x64) hz]
  unfold k4_pay1
  rw [shapeCast_self]
  exact mm64_apply _ _ j

/-! ## The closing bodies -/

/-- A [5000, 1] column repeated along 128 columns, at an entry. -/
theorem spreadCol (x : Vec Ideal S5000x1 .f32) (j : S5000x128.Idx) :
    broadcastTo S5000x128 x broadcasts_S5000x1_S5000x128 j = x (inCol j) :=
  broadcastTo_apply x broadcasts_S5000x1_S5000x128 j (inCol j) (fun a => by
    match a with
    | ⟨0, _⟩ => rfl
    | ⟨1, _⟩ => rfl)

/-- A [1, 128] row repeated along 5000 rows, at an entry. -/
theorem spreadRow (x : Vec Ideal S1x128 .f32) (j : S5000x128.Idx) :
    broadcastTo S5000x128 x broadcasts_S1x128_S5000x128 j = x (inRow j) :=
  broadcastTo_apply x broadcasts_S1x128_S5000x128 j (inRow j) (fun a => by
    match a with
    | ⟨0, _⟩ => rfl
    | ⟨1, _⟩ => rfl)

/-- A [5000, 1] column repeated along 64 columns, at an entry. -/
theorem spreadCol64 (x : Vec Ideal S5000x1 .f32) (j : S5000x64.Idx) :
    broadcastTo S5000x64 x broadcasts_S5000x1_S5000x64 j = x (inCol64 j) :=
  broadcastTo_apply x broadcasts_S5000x1_S5000x64 j (inCol64 j) (fun a => by
    match a with
    | ⟨0, _⟩ => rfl
    | ⟨1, _⟩ => rfl)

/-- A [1, 64] row repeated along 5000 rows, at an entry. -/
theorem spreadRow64 (x : Vec Ideal S1x64 .f32) (j : S5000x64.Idx) :
    broadcastTo S5000x64 x broadcasts_S1x64_S5000x64 j = x (inRow64 j) :=
  broadcastTo_apply x broadcasts_S1x64_S5000x64 j (inRow64 j) (fun a => by
    match a with
    | ⟨0, _⟩ => rfl
    | ⟨1, _⟩ => rfl)

/-- The first closing body's block. -/
theorem out1_4_apply (x0 x1 : Vec Ideal S5000x128 .f32) (x2 : Vec Ideal S5000x1 .f32) (x3 : Vec Ideal S1x128 .f32) (j : S5000x128.Idx) :
    out1_4 (F := Ideal) x0 x1 x2 x3 j
      = FloatOps.maximumf (F := Ideal) (φ := .f32)
          (FloatOps.addf (F := Ideal) (φ := .f32) (FloatOps.addf (F := Ideal) (φ := .f32) (x0 j) (FloatOps.mulf (F := Ideal) (φ := .f32) (x1 j) (x2 (inCol j)))) (x3 (inRow j)))
          (FloatOps.ofBits (F := Ideal) .f32 0x00000000#32) := by
  unfold out1_4
  rw [View.canon_unit_zero hz]
  simp only [View.ld_unit_zero (S := S5000x128) hz, View.ld_unit_zero (S := S5000x1) hz, View.ld_unit_zero (S := S1x128) hz]
  unfold k1_pay1
  simp only [shapeCast_self]
  show FloatOps.maximumf (F := Ideal) (φ := .f32)
      (FloatOps.addf (F := Ideal) (φ := .f32) (FloatOps.addf (F := Ideal) (φ := .f32) (x0 j) (FloatOps.mulf (F := Ideal) (φ := .f32) (x1 j) (broadcastTo S5000x128 x2 broadcasts_S5000x1_S5000x128 j)))
        (broadcastTo S5000x128 x3 broadcasts_S1x128_S5000x128 j)) _ = _
  rw [spreadCol, spreadRow]
  rfl

/-- The second closing body's block. -/
theorem out3_4_apply (x0 x1 : Vec Ideal S5000x128 .f32) (x2 : Vec Ideal S5000x1 .f32) (x3 : Vec Ideal S1x128 .f32) (j : S5000x128.Idx) :
    out3_4 (F := Ideal) x0 x1 x2 x3 j
      = FloatOps.maximumf (F := Ideal) (φ := .f32)
          (FloatOps.addf (F := Ideal) (φ := .f32) (FloatOps.addf (F := Ideal) (φ := .f32) (x0 j) (FloatOps.mulf (F := Ideal) (φ := .f32) (x1 j) (x2 (inCol j)))) (x3 (inRow j)))
          (FloatOps.ofBits (F := Ideal) .f32 0x00000000#32) := by
  unfold out3_4
  rw [View.canon_unit_zero hz]
  simp only [View.ld_unit_zero (S := S5000x128) hz, View.ld_unit_zero (S := S5000x1) hz, View.ld_unit_zero (S := S1x128) hz]
  unfold k3_pay1
  simp only [shapeCast_self]
  show FloatOps.maximumf (F := Ideal) (φ := .f32)
      (FloatOps.addf (F := Ideal) (φ := .f32) (FloatOps.addf (F := Ideal) (φ := .f32) (x0 j) (FloatOps.mulf (F := Ideal) (φ := .f32) (x1 j) (broadcastTo S5000x128 x2 broadcasts_S5000x1_S5000x128 j)))
        (broadcastTo S5000x128 x3 broadcasts_S1x128_S5000x128 j)) _ = _
  rw [spreadCol, spreadRow]
  rfl

/-- The last closing body's block: no cut at zero. -/
theorem out5_4_apply (x0 x1 : Vec Ideal S5000x64 .f32) (x2 : Vec Ideal S5000x1 .f32) (x3 : Vec Ideal S1x64 .f32) (j : S5000x64.Idx) :
    out5_4 (F := Ideal) x0 x1 x2 x3 j
      = FloatOps.addf (F := Ideal) (φ := .f32) (FloatOps.addf (F := Ideal) (φ := .f32) (x0 j) (FloatOps.mulf (F := Ideal) (φ := .f32) (x1 j) (x2 (inCol64 j)))) (x3 (inRow64 j)) := by
  unfold out5_4
  rw [View.canon_unit_zero hz]
  simp only [View.ld_unit_zero (S := S5000x64) hz, View.ld_unit_zero (S := S5000x1) hz, View.ld_unit_zero (S := S1x64) hz]
  unfold k5_pay1
  simp only [shapeCast_self]
  show FloatOps.addf (F := Ideal) (φ := .f32) (FloatOps.addf (F := Ideal) (φ := .f32) (x0 j) (FloatOps.mulf (F := Ideal) (φ := .f32) (x1 j) (broadcastTo S5000x64 x2 broadcasts_S5000x1_S5000x64 j)))
      (broadcastTo S5000x64 x3 broadcasts_S1x64_S5000x64 j) = _
  rw [spreadCol64, spreadRow64]

end Cert.Gcn3.Blocks

end
-- ==== Proof.Region0.lean ====
/-
  The first product region, from blocks to the whole array.

  The region is entered with some contents `V` of the buffers. Its grid has ten points; point t stages rows
  5000 t … 5000 t + 4999 of the left factor and the whole right factor, and writes back the same rows of the result.
  A block's entry (r, j) is the sum over k of left (5000 t + r, k) * right (k, j): the entry (5000 t + r, j) of the
  product of the whole arrays. The ten blocks tile the result, so after the region the result array IS that product.
-/
import proofs.«122045_j38611755991794_1_alg».proof.Proof.Graph
import proofs.«122045_j38611755991794_1_alg».proof.Proof.Blocks

set_option maxRecDepth 16384

noncomputable section

open scoped BigOperators

namespace Cert.Gcn3.Regions

open Idealize.ShloMosaic Idealize.ShloMosaic.TcCoe Idealize.SL.Sem Cert.KernelIdeal Cert.KernelIdeal.Gen Cert.Gcn3 Cert.Gcn3.Blocks
open Idealize.ShloMosaic.Pipeline (Dat)

variable (V : (c : Dev nD) → (b : Ref sig .tc) → Buf (Elt Ideal) ((c : Thread nD τ).loc b))

/-! ## Region 0: a product, block of 5000 rows by block -/

/-- Region 0's index maps over its ten points: the left factor's and the result's block move down with the point,
    the right factor is one block. -/
theorem pts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two whole arrays: row r of the block is row
    5000 t + r of the left factor against the whole right factor. -/
theorem flushed0 (c : Dev nD) (t : Fin cfg0.N) :
    (dat0 V c).flushed 2 t
      = ((cfg0.win 2).blk t).view.read (Elt Ideal) (prod128 (V c main_arg0) (V c main_arg2)) := by
  show (cfg0.win 2).cut (grid0.coords t) ((dat0 V c).after 2 t) = _
  rw [after0_2]
  obtain ⟨e0, e1, e2, e3, e4, e5⟩ := pts0 t
  funext j
  show out0_2 (F := Ideal) (iblk0 V c 0 t) (iblk0 V c 1 t) j
    = prod128 (V c main_arg0) (V c main_arg2) (((cfg0.win 2).blk t).view.emb j)
  refine (out0_2_apply _ _ j).trans ?_
  unfold prod128
  beta_reduce
  refine Finset.sum_congr rfl fun k _ => ?_
  have h0 : ((cfg0.win 0).blk t).view.emb (brow j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (bcol j k) = rcol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have g0 : iblk0 V c 0 t (brow j k) = V c main_arg0 (lrow (((cfg0.win 2).blk t).view.emb j) k) :=
    congrArg (V c main_arg0) h0
  have g1 : iblk0 V c 1 t (bcol j k) = V c main_arg2 (rcol (((cfg0.win 2).blk t).view.emb j) k) :=
    congrArg (V c main_arg2) h1
  rw [g0, g1]

/-- An entry is in point `t`'s block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every entry is in some point's block: row r is in block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show (i 0).val / 5000 < 10; omega
  obtain ⟨-, -, -, -, e4, e5⟩ := pts0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- After region 0 its result array is the product of the two arrays it was entered with. -/
theorem final0 (c : Dev nD) : (dat0 V c).arrAt 2 cfg0.N = prod128 (V c main_arg0) (V c main_arg2) :=
  (dat0 V c).arrAt_eq_of_cover 2 _ (fun t _ => flushed0 V c t) cover0

end Cert.Gcn3.Regions

end
-- ==== Proof.Close.lean ====
/-
  The closing step of a layer as the kernels see it: the vector over the nodes arrives as a one-column matrix and the
  bias as a one-row matrix. Entry (r, j) is (a (r, j) + h (r, j) * q (r, 0)) + b (0, j), cut at zero in the first two
  layers. When q and b are re-casts of vectors — [50000] as [50000, 1], [C] as [1, C]: the same elements in the same
  row-major order — this is `mix128` / `mix64` of the vectors.
-/
import proofs.«122045_j38611755991794_1_alg».proof.Proof.Graph

noncomputable section

namespace Cert.Gcn3

open Idealize.ShloMosaic Idealize.ShloMosaic.TcCoe Cert.KernelIdeal Cert.KernelIdeal.Facts₀

/-- Entry (r, 0) of a one-column matrix over the nodes. -/
abbrev nodeCol (i : S50000x128.Idx) : S50000x1.Idx := fun a => match a with
  | ⟨0, _⟩ => ⟨(i 0).val, (i 0).isLt⟩
  | ⟨1, _⟩ => ⟨0, Nat.one_pos⟩
/-- Entry (0, j) of a one-row matrix over the features. -/
abbrev featRow (i : S50000x128.Idx) : S1x128.Idx := fun a => match a with
  | ⟨0, _⟩ => ⟨0, Nat.one_pos⟩
  | ⟨1, _⟩ => ⟨(i 1).val, (i 1).isLt⟩
/-- Entry (r, 0) of a one-column matrix over the nodes, 64 features. -/
abbrev nodeCol64 (i : S50000x64.Idx) : S50000x1.Idx := fun a => match a with
  | ⟨0, _⟩ => ⟨(i 0).val, (i 0).isLt⟩
  | ⟨1, _⟩ => ⟨0, Nat.one_pos⟩
/-- Entry (0, j) of a one-row matrix over 64 features. -/
abbrev featRow64 (i : S50000x64.Idx) : S1x64.Idx := fun a => match a with
  | ⟨0, _⟩ => ⟨0, Nat.one_pos⟩
  | ⟨1, _⟩ => ⟨(i 1).val, (i 1).isLt⟩

/-- (a + h * q at the node's row) + b at the feature's column, then the larger of that and zero. -/
def close128 (a h : Mat S50000x128) (q : Mat S50000x1) (b : Mat S1x128) : Mat S50000x128 := fun i =>
  FloatOps.maximumf (F := Ideal) (φ := .f32)
    (FloatOps.addf (F := Ideal) (φ := .f32) (FloatOps.addf (F := Ideal) (φ := .f32) (a i) (FloatOps.mulf (F := Ideal) (φ := .f32) (h i) (q (nodeCol i)))) (b (featRow i)))
    (FloatOps.ofBits (F := Ideal) .f32 0x00000000#32)

/-- (a + h * q at the node's row) + b at the feature's column. -/
def close64 (a h : Mat S50000x64) (q : Mat S50000x1) (b : Mat S1x64) : Mat S50000x64 := fun i =>
  FloatOps.addf (F := Ideal) (φ := .f32) (FloatOps.addf (F := Ideal) (φ := .f32) (a i) (FloatOps.mulf (F := Ideal) (φ := .f32) (h i) (q (nodeCol64 i)))) (b (featRow64 i))

/-- A vector over the nodes re-cast as one column, at (r, 0), is its element r. -/
theorem asCol_apply (q : Mat S50000) (i : S50000x128.Idx) :
    shapeCast S50000x1 q shapeCasts_S50000_S50000x1 (nodeCol i) = q (nodeOf i) :=
  shapeCast_apply q shapeCasts_S50000_S50000x1 (nodeCol i) (nodeOf i) (by
    rw [Shape.rowMajor_val_one, Shape.rowMajor_val_two]
    show (i 0).val = (i 0).val * 1 + 0
    omega)

/-- The same read from an entry with 64 features. -/
theorem asCol64_apply (q : Mat S50000) (i : S50000x64.Idx) :
    shapeCast S50000x1 q shapeCasts_S50000_S50000x1 (nodeCol64 i) = q (nodeOf64 i) :=
  shapeCast_apply q shapeCasts_S50000_S50000x1 (nodeCol64 i) (nodeOf64 i) (by
    rw [Shape.rowMajor_val_one, Shape.rowMajor_val_two]
    show (i 0).val = (i 0).val * 1 + 0
    omega)

/-- A bias of 128 re-cast as one row, at (0, j), is its element j. -/
theorem asRow_apply (b : Mat S128) (i : S50000x128.Idx) :
    shapeCast S1x128 b shapeCasts_S128_S1x128 (featRow i) = b (featOf i) :=
  shapeCast_apply b shapeCasts_S128_S1x128 (featRow i) (featOf i) (by
    rw [Shape.rowMajor_val_one, Shape.rowMajor_val_two]
    show (i 1).val = 0 * 128 + (i 1).val
    omega)

/-- A bias of 64 re-cast as one row, at (0, j), is its element j. -/
theorem asRow64_apply (b : Mat S64) (i : S50000x64.Idx) :
    shapeCast S1x64 b shapeCasts_S64_S1x64 (featRow64 i) = b (featOf64 i) :=
  shapeCast_apply b shapeCasts_S64_S1x64 (featRow64 i) (featOf64 i) (by
    rw [Shape.rowMajor_val_one, Shape.rowMajor_val_two]
    show (i 1).val = 0 * 64 + (i 1).val
    omega)

/-- The closing step on re-cast vectors is `mix128` of the vectors. -/
theorem close128_casts (a h : Mat S50000x128) (q : Mat S50000) (b : Mat S128) :
    close128 a h (shapeCast S50000x1 q shapeCasts_S50000_S50000x1) (shapeCast S1x128 b shapeCasts_S128_S1x128) = mix128 a h q b := by
  funext i
  unfold close128 mix128
  rw [asCol_apply, asRow_apply]

/-- The closing step on re-cast vectors is `mix64` of the vectors. -/
theorem close64_casts (a h : Mat S50000x64) (q : Mat S50000) (b : Mat S64) :
    close64 a h (shapeCast S50000x1 q shapeCasts_S50000_S50000x1) (shapeCast S1x64 b shapeCasts_S64_S1x64) = mix64 a h q b := by
  funext i
  unfold close64 mix64
  rw [asCol64_apply, asRow64_apply]

end Cert.Gcn3

end
-- ==== Proof.Region1.lean ====
/-
  The first closing region, from blocks to the whole array.

  Point t of its ten stages rows 5000 t … 5000 t + 4999 of the spread matrix, of the product and of the one-column matrix
  over the nodes, and the whole one-row bias, and writes back the same rows of the result. An entry of a block reads the
  two matrices at that entry of the whole arrays, the column at the entry's row, the bias at the entry's feature: the
  closing step of the whole arrays at that entry. The ten blocks tile the result.
-/
import proofs.«122045_j38611755991794_1_alg».proof.Proof.Graph
import proofs.«122045_j38611755991794_1_alg».proof.Proof.Blocks
import proofs.«122045_j38611755991794_1_alg».proof.Proof.Close

set_option maxRecDepth 16384

noncomputable section

open scoped BigOperators

namespace Cert.Gcn3.Regions

open Idealize.ShloMosaic Idealize.ShloMosaic.TcCoe Idealize.SL.Sem Cert.KernelIdeal Cert.KernelIdeal.Gen Cert.Gcn3 Cert.Gcn3.Blocks
open Idealize.ShloMosaic.Pipeline (Dat)

variable (V : (c : Dev nD) → (b : Ref sig .tc) → Buf (Elt Ideal) ((c : Thread nD τ).loc b))

/-! ## Region 1: the closing step of a layer, block of 5000 rows by block -/

/-- Region 1's index maps over its ten points: the two matrices', the column's and the result's block move down with
    the point, the bias row is one block. -/
theorem pts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the closing step of the four whole arrays: an entry of the block reads
    the two matrices at the same entry of the whole arrays, the column at its row, the bias at its feature. -/
theorem flushed1 (c : Dev nD) (t : Fin cfg1.N) :
    (dat1 V c).flushed 4 t
      = ((cfg1.win 4).blk t).view.read (Elt Ideal) (close128 (V c main_v42) (V c main_v4) (V c main_v13) (V c main_v43)) := by
  show (cfg1.win 4).cut (grid1.coords t) ((dat1 V c).after 4 t) = _
  rw [after1_4]
  obtain ⟨e0, e1, e2, e3, e4, e5, e6, e7, e8, e9⟩ := pts1 t
  funext j
  show out1_4 (F := Ideal) (iblk1 V c 0 t) (iblk1 V c 1 t) (iblk1 V c 2 t) (iblk1 V c 3 t) j
    = close128 (V c main_v42) (V c main_v4) (V c main_v13) (V c main_v43) (((cfg1.win 4).blk t).view.emb j)
  refine (out1_4_apply _ _ _ _ j).trans ?_
  unfold close128
  show FloatOps.maximumf (F := Ideal) (φ := .f32) (FloatOps.addf (F := Ideal) (φ := .f32) (FloatOps.addf (F := Ideal) (φ := .f32) ((V c main_v42 : Mat S50000x128) (((cfg1.win 0).blk t).view.emb j)) (FloatOps.mulf (F := Ideal) (φ := .f32) ((V c main_v4 : Mat S50000x128) (((cfg1.win 1).blk t).view.emb j)) ((V c main_v13 : Mat S50000x1) (((cfg1.win 2).blk t).view.emb (inCol j))))) ((V c main_v43 : Mat S1x128) (((cfg1.win 3).blk t).view.emb (inRow j)))) (FloatOps.ofBits (F := Ideal) .f32 0x00000000#32)
    = FloatOps.maximumf (F := Ideal) (φ := .f32) (FloatOps.addf (F := Ideal) (φ := .f32) (FloatOps.addf (F := Ideal) (φ := .f32) ((V c main_v42 : Mat S50000x128) (((cfg1.win 4).blk t).view.emb j)) (FloatOps.mulf (F := Ideal) (φ := .f32) ((V c main_v4 : Mat S50000x128) (((cfg1.win 4).blk t).view.emb j)) ((V c main_v13 : Mat S50000x1) (nodeCol (((cfg1.win 4).blk t).view.emb j))))) ((V c main_v43 : Mat S1x128) (featRow (((cfg1.win 4).blk t).view.emb j)))) (FloatOps.ofBits (F := Ideal) .f32 0x00000000#32)
  have h0 : (((cfg1.win 0).blk t).view.emb j) = (((cfg1.win 4).blk t).view.emb j) := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : (((cfg1.win 1).blk t).view.emb j) = (((cfg1.win 4).blk t).view.emb j) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : (((cfg1.win 2).blk t).view.emb (inCol j)) = nodeCol (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : (((cfg1.win 3).blk t).view.emb (inRow j)) = featRow (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h0, h1, h2, h3]

/-- An entry is in point `t`'s block iff each coordinate is in the block's range. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Every entry is in some point's block: row r is in block r / 5000. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < cfg1.N := by show (i 0).val / 5000 < 10; omega
  obtain ⟨-, -, -, -, -, -, -, -, e8, e9⟩ := pts1 ⟨(i 0).val / 5000, ht⟩
  have e8' : win1_4.index ⟨(i 0).val / 5000, ht⟩ (0 : Fin 2) = (i 0).val / 5000 := e8
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    omega

/-- After region 1 its result array is the closing step of the four arrays it was entered with. -/
theorem final1 (c : Dev nD) :
    (dat1 V c).arrAt 4 cfg1.N = close128 (V c main_v42) (V c main_v4) (V c main_v13) (V c main_v43) :=
  (dat1 V c).arrAt_eq_of_cover 4 _ (fun t _ => flushed1 V c t) cover1

end Cert.Gcn3.Regions

end
-- ==== Proof.WalkA.lean ====
/-
  The kernel program's buffers, boundary by boundary: from the launch to the end of the first layer.

  Boundary 1 (after the first stretch): the two rows of the message table are cut out; nothing else of interest is
  written. Boundary 2 (after the first product region): the product of the input and the first weight matrix.
  Boundary 3 (after the second stretch): that product spread along the messages, one over the degree as a one-column
  matrix, the first bias as a one-row matrix. Boundary 4 (after the first closing region): the first layer.

  A region changes only its own arrays, a stretch only the buffers its operations write; every buffer that is read
  later is carried across each boundary unchanged.
-/
import proofs.«122045_j38611755991794_1_alg».proof.Proof.Region0
import proofs.«122045_j38611755991794_1_alg».proof.Proof.Region1
import proofs.«122045_j38611755991794_1_alg».proof.Proof.Close
import Idealize.ShloMosaic.Lib.StableHlo.Run

set_option maxRecDepth 16384

noncomputable section

namespace Cert.Gcn3.Walk

open Idealize.ShloMosaic Idealize.ShloMosaic.TcCoe Idealize.SL.Sem Idealize.ShloMosaic.StableHlo
open Cert.KernelIdeal Cert.KernelIdeal.Gen Cert.Gcn3 Cert.Gcn3.Regions

variable (m : (ℓ : Loc nD τ sig) → Buf (Elt Ideal) ℓ) (ρ : Dev nD → PrngReg) (c : Dev nD)

/-! ## The arguments as launched -/

/-- The node features. -/
abbrev aX : Mat S50000x128 := m ((c.tc : Thread nD τ).loc main_arg0)
/-- The message table. -/
abbrev aE : Words S2x640000 := m ((c.tc : Thread nD τ).loc main_arg1)
/-- The first weight matrix. -/
abbrev aW1 : Mat S128x128 := m ((c.tc : Thread nD τ).loc main_arg2)
/-- The first bias. -/
abbrev aB1 : Mat S128 := m ((c.tc : Thread nD τ).loc main_arg3)
/-- The second weight matrix. -/
abbrev aW2 : Mat S128x128 := m ((c.tc : Thread nD τ).loc main_arg4)
/-- The second bias. -/
abbrev aB2 : Mat S128 := m ((c.tc : Thread nD τ).loc main_arg5)
/-- The third weight matrix. -/
abbrev aW3 : Mat S128x64 := m ((c.tc : Thread nD τ).loc main_arg6)
/-- The third bias. -/
abbrev aB3 : Mat S64 := m ((c.tc : Thread nD τ).loc main_arg7)

/-! ## Boundary 1: after the first stretch -/

theorem b1_v1 : W1 m ρ c (Proc.devRef .tc main_v1) = srcOf (aE m c) := by
  show StableHlo.after hostOps0 (W0 m ρ c) (Proc.devRef .tc main_v1) = _
  after_results_simp <;> rfl
theorem b1_v3 : W1 m ρ c (Proc.devRef .tc main_v3) = dstOf (aE m c) := by
  show StableHlo.after hostOps0 (W0 m ρ c) (Proc.devRef .tc main_v3) = _
  after_results_simp <;> rfl
theorem b1_a0 : W1 m ρ c (Proc.devRef .tc main_arg0) = aX m c := by
  show StableHlo.after hostOps0 (W0 m ρ c) (Proc.devRef .tc main_arg0) = _
  after_results_simp <;> rfl
theorem b1_a2 : W1 m ρ c (Proc.devRef .tc main_arg2) = aW1 m c := by
  show StableHlo.after hostOps0 (W0 m ρ c) (Proc.devRef .tc main_arg2) = _
  after_results_simp <;> rfl
theorem b1_a3 : W1 m ρ c (Proc.devRef .tc main_arg3) = aB1 m c := by
  show StableHlo.after hostOps0 (W0 m ρ c) (Proc.devRef .tc main_arg3) = _
  after_results_simp <;> rfl
theorem b1_a4 : W1 m ρ c (Proc.devRef .tc main_arg4) = aW2 m c := by
  show StableHlo.after hostOps0 (W0 m ρ c) (Proc.devRef .tc main_arg4) = _
  after_results_simp <;> rfl
theorem b1_a5 : W1 m ρ c (Proc.devRef .tc main_arg5) = aB2 m c := by
  show StableHlo.after hostOps0 (W0 m ρ c) (Proc.devRef .tc main_arg5) = _
  after_results_simp <;> rfl
theorem b1_a6 : W1 m ρ c (Proc.devRef .tc main_arg6) = aW3 m c := by
  show StableHlo.after hostOps0 (W0 m ρ c) (Proc.devRef .tc main_arg6) = _
  after_results_simp <;> rfl
theorem b1_a7 : W1 m ρ c (Proc.devRef .tc main_arg7) = aB3 m c := by
  show StableHlo.after hostOps0 (W0 m ρ c) (Proc.devRef .tc main_arg7) = _
  after_results_simp <;> rfl

/-! ## Boundary 2: after the first product region -/

theorem b2_v4 : W2 m ρ c (Proc.devRef .tc main_v4) = prod128 (aX m c) (aW1 m c) :=
  (W2_arr m ρ c 2).trans ((final0 (V1 m ρ) c).trans (congrArg₂ prod128 (b1_a0 m ρ c) (b1_a2 m ρ c)))
theorem b2_v1 : W2 m ρ c (Proc.devRef .tc main_v1) = srcOf (aE m c) :=
  (W2_of_ne m ρ c main_v1 (by decide)).trans (b1_v1 m ρ c)
theorem b2_v3 : W2 m ρ c (Proc.devRef .tc main_v3) = dstOf (aE m c) :=
  (W2_of_ne m ρ c main_v3 (by decide)).trans (b1_v3 m ρ c)
theorem b2_a3 : W2 m ρ c (Proc.devRef .tc main_arg3) = aB1 m c :=
  (W2_of_ne m ρ c main_arg3 (by decide)).trans (b1_a3 m ρ c)
theorem b2_a4 : W2 m ρ c (Proc.devRef .tc main_arg4) = aW2 m c :=
  (W2_of_ne m ρ c main_arg4 (by decide)).trans (b1_a4 m ρ c)
theorem b2_a5 : W2 m ρ c (Proc.devRef .tc main_arg5) = aB2 m c :=
  (W2_of_ne m ρ c main_arg5 (by decide)).trans (b1_a5 m ρ c)
theorem b2_a6 : W2 m ρ c (Proc.devRef .tc main_arg6) = aW3 m c :=
  (W2_of_ne m ρ c main_arg6 (by decide)).trans (b1_a6 m ρ c)
theorem b2_a7 : W2 m ρ c (Proc.devRef .tc main_arg7) = aB3 m c :=
  (W2_of_ne m ρ c main_arg7 (by decide)).trans (b1_a7 m ρ c)

/-! ## Boundary 3: after the second stretch -/

theorem b3_v42 : W3 m ρ c (Proc.devRef .tc main_v42)
    = spread128 (prod128 (aX m c) (aW1 m c)) (srcOf (aE m c)) (dstOf (aE m c)) := by
  show StableHlo.after hostOps1 (W2 m ρ c) (Proc.devRef .tc main_v42) = _
  after_results_simp
  rw [b2_v4, b2_v1, b2_v3]
  rfl
theorem b3_v13 : W3 m ρ c (Proc.devRef .tc main_v13)
    = shapeCast S50000x1 (invDegree (dstOf (aE m c))) Facts₀.shapeCasts_S50000_S50000x1 := by
  show StableHlo.after hostOps1 (W2 m ρ c) (Proc.devRef .tc main_v13) = _
  after_results_simp
  rw [b2_v3]
  rfl
theorem b3_v43 : W3 m ρ c (Proc.devRef .tc main_v43) = shapeCast S1x128 (aB1 m c) Facts₀.shapeCasts_S128_S1x128 := by
  show StableHlo.after hostOps1 (W2 m ρ c) (Proc.devRef .tc main_v43) = _
  after_results_simp
  rw [b2_a3]
  rfl
theorem b3_v4 : W3 m ρ c (Proc.devRef .tc main_v4) = prod128 (aX m c) (aW1 m c) := by
  show StableHlo.after hostOps1 (W2 m ρ c) (Proc.devRef .tc main_v4) = _
  after_results_simp
  exact b2_v4 m ρ c
theorem b3_v1 : W3 m ρ c (Proc.devRef .tc main_v1) = srcOf (aE m c) := by
  show StableHlo.after hostOps1 (W2 m ρ c) (Proc.devRef .tc main_v1) = _
  after_results_simp
  exact b2_v1 m ρ c
theorem b3_v3 : W3 m ρ c (Proc.devRef .tc main_v3) = dstOf (aE m c) := by
  show StableHlo.after hostOps1 (W2 m ρ c) (Proc.devRef .tc main_v3) = _
  after_results_simp
  exact b2_v3 m ρ c
theorem b3_a4 : W3 m ρ c (Proc.devRef .tc main_arg4) = aW2 m c := by
  show StableHlo.after hostOps1 (W2 m ρ c) (Proc.devRef .tc main_arg4) = _
  after_results_simp
  exact b2_a4 m ρ c
theorem b3_a5 : W3 m ρ c (Proc.devRef .tc main_arg5) = aB2 m c := by
  show StableHlo.after hostOps1 (W2 m ρ c) (Proc.devRef .tc main_arg5) = _
  after_results_simp
  exact b2_a5 m ρ c
theorem b3_a6 : W3 m ρ c (Proc.devRef .tc main_arg6) = aW3 m c := by
  show StableHlo.after hostOps1 (W2 m ρ c) (Proc.devRef .tc main_arg6) = _
  after_results_simp
  exact b2_a6 m ρ c
theorem b3_a7 : W3 m ρ c (Proc.devRef .tc main_arg7) = aB3 m c := by
  show StableHlo.after hostOps1 (W2 m ρ c) (Proc.devRef .tc main_arg7) = _
  after_results_simp
  exact b2_a7 m ρ c

/-! ## Boundary 4: after the first closing region -/

/-- The first layer. -/
theorem b4_v44 : W4 m ρ c (Proc.devRef .tc main_v44) = layer128 (aX m c) (aE m c) (aW1 m c) (aB1 m c) :=
  (W4_arr m ρ c 4).trans ((final1 (V3 m ρ) c).trans (by
    show close128 (W3 m ρ c (Proc.devRef .tc main_v42)) (W3 m ρ c (Proc.devRef .tc main_v4))
      (W3 m ρ c (Proc.devRef .tc main_v13)) (W3 m ρ c (Proc.devRef .tc main_v43)) = _
    rw [b3_v42, b3_v4, b3_v13, b3_v43, close128_casts]
    rfl))
theorem b4_v1 : W4 m ρ c (Proc.devRef .tc main_v1) = srcOf (aE m c) :=
  (W4_of_ne m ρ c main_v1 (by decide)).trans (b3_v1 m ρ c)
theorem b4_v3 : W4 m ρ c (Proc.devRef .tc main_v3) = dstOf (aE m c) :=
  (W4_of_ne m ρ c main_v3 (by decide)).trans (b3_v3 m ρ c)
theorem b4_a4 : W4 m ρ c (Proc.devRef .tc main_arg4) = aW2 m c :=
  (W4_of_ne m ρ c main_arg4 (by decide)).trans (b3_a4 m ρ c)
theorem b4_a5 : W4 m ρ c (Proc.devRef .tc main_arg5) = aB2 m c :=
  (W4_of_ne m ρ c main_arg5 (by decide)).trans (b3_a5 m ρ c)
theorem b4_a6 : W4 m ρ c (Proc.devRef .tc main_arg6) = aW3 m c :=
  (W4_of_ne m ρ c main_arg6 (by decide)).trans (b3_a6 m ρ c)
theorem b4_a7 : W4 m ρ c (Proc.devRef .tc main_arg7) = aB3 m c :=
  (W4_of_ne m ρ c main_arg7 (by decide)).trans (b3_a7 m ρ c)

end Cert.Gcn3.Walk

end
-- ==== Proof.Region2.lean ====
/-
  The second product region, from blocks to the whole array: the first layer's result, rows 5000 t … 5000 t + 4999 at
  point t, against the whole second weight matrix. As in the first product region, a block's entry is the entry of the
  product of the whole arrays at the same row of the whole array, and the ten blocks tile the result.
-/
import proofs.«122045_j38611755991794_1_alg».proof.Proof.Graph
import proofs.«122045_j38611755991794_1_alg».proof.Proof.Blocks

set_option maxRecDepth 16384

noncomputable section

open scoped BigOperators

namespace Cert.Gcn3.Regions

open Idealize.ShloMosaic Idealize.ShloMosaic.TcCoe Idealize.SL.Sem Cert.KernelIdeal Cert.KernelIdeal.Gen Cert.Gcn3 Cert.Gcn3.Blocks
open Idealize.ShloMosaic.Pipeline (Dat)

variable (V : (c : Dev nD) → (b : Ref sig .tc) → Buf (Elt Ideal) ((c : Thread nD τ).loc b))

/-! ## Region 2: a product, block of 5000 rows by block -/

/-- Region 2's index maps over its ten points: the left factor's and the result's block move down with the point,
    the right factor is one block. -/
theorem pts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two whole arrays: row r of the block is row
    5000 t + r of the left factor against the whole right factor. -/
theorem flushed2 (c : Dev nD) (t : Fin cfg2.N) :
    (dat2 V c).flushed 2 t
      = ((cfg2.win 2).blk t).view.read (Elt Ideal) (prod128 (V c main_v44) (V c main_arg4)) := by
  show (cfg2.win 2).cut (grid2.coords t) ((dat2 V c).after 2 t) = _
  rw [after2_2]
  obtain ⟨e0, e1, e2, e3, e4, e5⟩ := pts2 t
  funext j
  show out2_2 (F := Ideal) (iblk2 V c 0 t) (iblk2 V c 1 t) j
    = prod128 (V c main_v44) (V c main_arg4) (((cfg2.win 2).blk t).view.emb j)
  refine (out2_2_apply _ _ j).trans ?_
  unfold prod128
  beta_reduce
  refine Finset.sum_congr rfl fun k _ => ?_
  have h0 : ((cfg2.win 0).blk t).view.emb (brow j k) = lrow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (bcol j k) = rcol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have g0 : iblk2 V c 0 t (brow j k) = V c main_v44 (lrow (((cfg2.win 2).blk t).view.emb j) k) :=
    congrArg (V c main_v44) h0
  have g1 : iblk2 V c 1 t (bcol j k) = V c main_arg4 (rcol (((cfg2.win 2).blk t).view.emb j) k) :=
    congrArg (V c main_arg4) h1
  rw [g0, g1]

/-- An entry is in point `t`'s block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every entry is in some point's block: row r is in block r / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 5000 < cfg2.N := by show (i 0).val / 5000 < 10; omega
  obtain ⟨-, -, -, -, e4, e5⟩ := pts2 ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

/-- After region 2 its result array is the product of the two arrays it was entered with. -/
theorem final2 (c : Dev nD) : (dat2 V c).arrAt 2 cfg2.N = prod128 (V c main_v44) (V c main_arg4) :=
  (dat2 V c).arrAt_eq_of_cover 2 _ (fun t _ => flushed2 V c t) cover2

end Cert.Gcn3.Regions

end
-- ==== Proof.Region3.lean ====
/-
  The second closing region, from blocks to the whole array: the same step as the first closing region on the second
  layer's spread matrix, product, one-column matrix over the nodes and bias row; ten blocks of 5000 rows tile the result.
-/
import proofs.«122045_j38611755991794_1_alg».proof.Proof.Graph
import proofs.«122045_j38611755991794_1_alg».proof.Proof.Blocks
import proofs.«122045_j38611755991794_1_alg».proof.Proof.Close

set_option maxRecDepth 16384

noncomputable section

open scoped BigOperators

namespace Cert.Gcn3.Regions

open Idealize.ShloMosaic Idealize.ShloMosaic.TcCoe Idealize.SL.Sem Cert.KernelIdeal Cert.KernelIdeal.Gen Cert.Gcn3 Cert.Gcn3.Blocks
open Idealize.ShloMosaic.Pipeline (Dat)

variable (V : (c : Dev nD) → (b : Ref sig .tc) → Buf (Elt Ideal) ((c : Thread nD τ).loc b))

/-! ## Region 3: the closing step of a layer, block of 5000 rows by block -/

/-- Region 3's index maps over its ten points: the two matrices', the column's and the result's block move down with
    the point, the bias row is one block. -/
theorem pts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the closing step of the four whole arrays: an entry of the block reads
    the two matrices at the same entry of the whole arrays, the column at its row, the bias at its feature. -/
theorem flushed3 (c : Dev nD) (t : Fin cfg3.N) :
    (dat3 V c).flushed 4 t
      = ((cfg3.win 4).blk t).view.read (Elt Ideal) (close128 (V c main_v83) (V c main_v45) (V c main_v54) (V c main_v84)) := by
  show (cfg3.win 4).cut (grid3.coords t) ((dat3 V c).after 4 t) = _
  rw [after3_4]
  obtain ⟨e0, e1, e2, e3, e4, e5, e6, e7, e8, e9⟩ := pts3 t
  funext j
  show out3_4 (F := Ideal) (iblk3 V c 0 t) (iblk3 V c 1 t) (iblk3 V c 2 t) (iblk3 V c 3 t) j
    = close128 (V c main_v83) (V c main_v45) (V c main_v54) (V c main_v84) (((cfg3.win 4).blk t).view.emb j)
  refine (out3_4_apply _ _ _ _ j).trans ?_
  unfold close128
  show FloatOps.maximumf (F := Ideal) (φ := .f32) (FloatOps.addf (F := Ideal) (φ := .f32) (FloatOps.addf (F := Ideal) (φ := .f32) ((V c main_v83 : Mat S50000x128) (((cfg3.win 0).blk t).view.emb j)) (FloatOps.mulf (F := Ideal) (φ := .f32) ((V c main_v45 : Mat S50000x128) (((cfg3.win 1).blk t).view.emb j)) ((V c main_v54 : Mat S50000x1) (((cfg3.win 2).blk t).view.emb (inCol j))))) ((V c main_v84 : Mat S1x128) (((cfg3.win 3).blk t).view.emb (inRow j)))) (FloatOps.ofBits (F := Ideal) .f32 0x00000000#32)
    = FloatOps.maximumf (F := Ideal) (φ := .f32) (FloatOps.addf (F := Ideal) (φ := .f32) (FloatOps.addf (F := Ideal) (φ := .f32) ((V c main_v83 : Mat S50000x128) (((cfg3.win 4).blk t).view.emb j)) (FloatOps.mulf (F := Ideal) (φ := .f32) ((V c main_v45 : Mat S50000x128) (((cfg3.win 4).blk t).view.emb j)) ((V c main_v54 : Mat S50000x1) (nodeCol (((cfg3.win 4).blk t).view.emb j))))) ((V c main_v84 : Mat S1x128) (featRow (((cfg3.win 4).blk t).view.emb j)))) (FloatOps.ofBits (F := Ideal) .f32 0x00000000#32)
  have h0 : (((cfg3.win 0).blk t).view.emb j) = (((cfg3.win 4).blk t).view.emb j) := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : (((cfg3.win 1).blk t).view.emb j) = (((cfg3.win 4).blk t).view.emb j) := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : (((cfg3.win 2).blk t).view.emb (inCol j)) = nodeCol (((cfg3.win 4).blk t).view.emb j) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : (((cfg3.win 3).blk t).view.emb (inRow j)) = featRow (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  rw [h0, h1, h2, h3]

/-- An entry is in point `t`'s block iff each coordinate is in the block's range. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v85).slice (win3_4.rect t)).set ↔ _
  rw [View.set_slice_whole, Rect.mem_set_unit]
  exact Iff.rfl

/-- Every entry is in some point's block: row r is in block r / 5000. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have ht : (i 0).val / 5000 < cfg3.N := by show (i 0).val / 5000 < 10; omega
  obtain ⟨-, -, -, -, -, -, -, -, e8, e9⟩ := pts3 ⟨(i 0).val / 5000, ht⟩
  have e8' : win3_4.index ⟨(i 0).val / 5000, ht⟩ (0 : Fin 2) = (i 0).val / 5000 := e8
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    omega

/-- After region 3 its result array is the closing step of the four arrays it was entered with. -/
theorem final3 (c : Dev nD) :
    (dat3 V c).arrAt 4 cfg3.N = close128 (V c main_v83) (V c main_v45) (V c main_v54) (V c main_v84) :=
  (dat3 V c).arrAt_eq_of_cover 4 _ (fun t _ => flushed3 V c t) cover3

end Cert.Gcn3.Regions

end
-- ==== Proof.WalkB.lean ====
/-
  The kernel program's buffers, boundary by boundary: the second layer.

  Boundary 5 (after the second product region): the first layer's result times the second weight matrix. Boundary 6
  (after the third stretch): that product spread along the messages, one over the degree as a one-column matrix, the
  second bias as a one-row matrix. Boundary 7 (after the second closing region): the second layer of the first.
-/
import proofs.«122045_j38611755991794_1_alg».proof.Proof.WalkA
import proofs.«122045_j38611755991794_1_alg».proof.Proof.Region2
import proofs.«122045_j38611755991794_1_alg».proof.Proof.Region3
import Idealize.ShloMosaic.Lib.StableHlo.Run

set_option maxRecDepth 16384

noncomputable section

namespace Cert.Gcn3.Walk

open Idealize.ShloMosaic Idealize.ShloMosaic.TcCoe Idealize.SL.Sem Idealize.ShloMosaic.StableHlo
open Cert.KernelIdeal Cert.KernelIdeal.Gen Cert.Gcn3 Cert.Gcn3.Regions

variable (m : (ℓ : Loc nD τ sig) → Buf (Elt Ideal) ℓ) (ρ : Dev nD → PrngReg) (c : Dev nD)

/-! ## Boundary 5: after the second product region -/

theorem b5_v45 : W5 m ρ c (Proc.devRef .tc main_v45) = prod128 (layer128 (aX m c) (aE m c) (aW1 m c) (aB1 m c)) (aW2 m c) :=
  (W5_arr m ρ c 2).trans ((final2 (V4 m ρ) c).trans (congrArg₂ prod128 (b4_v44 m ρ c) (b4_a4 m ρ c)))
theorem b5_v1 : W5 m ρ c (Proc.devRef .tc main_v1) = srcOf (aE m c) :=
  (W5_of_ne m ρ c main_v1 (by decide)).trans (b4_v1 m ρ c)
theorem b5_v3 : W5 m ρ c (Proc.devRef .tc main_v3) = dstOf (aE m c) :=
  (W5_of_ne m ρ c main_v3 (by decide)).trans (b4_v3 m ρ c)
theorem b5_a5 : W5 m ρ c (Proc.devRef .tc main_arg5) = aB2 m c :=
  (W5_of_ne m ρ c main_arg5 (by decide)).trans (b4_a5 m ρ c)
theorem b5_a6 : W5 m ρ c (Proc.devRef .tc main_arg6) = aW3 m c :=
  (W5_of_ne m ρ c main_arg6 (by decide)).trans (b4_a6 m ρ c)
theorem b5_a7 : W5 m ρ c (Proc.devRef .tc main_arg7) = aB3 m c :=
  (W5_of_ne m ρ c main_arg7 (by decide)).trans (b4_a7 m ρ c)

/-! ## Boundary 6: after the third stretch -/

theorem b6_v83 : W6 m ρ c (Proc.devRef .tc main_v83)
    = spread128 (prod128 (layer128 (aX m c) (aE m c) (aW1 m c) (aB1 m c)) (aW2 m c)) (srcOf (aE m c)) (dstOf (aE m c)) := by
  show StableHlo.after hostOps3 (W5 m ρ c) (Proc.devRef .tc main_v83) = _
  after_results_simp
  rw [b5_v45, b5_v1, b5_v3]
  rfl
theorem b6_v54 : W6 m ρ c (Proc.devRef .tc main_v54)
    = shapeCast S50000x1 (invDegree (dstOf (aE m c))) Facts₀.shapeCasts_S50000_S50000x1 := by
  show StableHlo.after hostOps3 (W5 m ρ c) (Proc.devRef .tc main_v54) = _
  after_results_simp
  rw [b5_v3]
  rfl
theorem b6_v84 : W6 m ρ c (Proc.devRef .tc main_v84) = shapeCast S1x128 (aB2 m c) Facts₀.shapeCasts_S128_S1x128 := by
  show StableHlo.after hostOps3 (W5 m ρ c) (Proc.devRef .tc main_v84) = _
  after_results_simp
  rw [b5_a5]
  rfl
theorem b6_v45 : W6 m ρ c (Proc.devRef .tc main_v45) = prod128 (layer128 (aX m c) (aE m c) (aW1 m c) (aB1 m c)) (aW2 m c) := by
  show StableHlo.after hostOps3 (W5 m ρ c) (Proc.devRef .tc main_v45) = _
  after_results_simp
  exact b5_v45 m ρ c
theorem b6_v1 : W6 m ρ c (Proc.devRef .tc main_v1) = srcOf (aE m c) := by
  show StableHlo.after hostOps3 (W5 m ρ c) (Proc.devRef .tc main_v1) = _
  after_results_simp
  exact b5_v1 m ρ c
theorem b6_v3 : W6 m ρ c (Proc.devRef .tc main_v3) = dstOf (aE m c) := by
  show StableHlo.after hostOps3 (W5 m ρ c) (Proc.devRef .tc main_v3) = _
  after_results_simp
  exact b5_v3 m ρ c
theorem b6_a6 : W6 m ρ c (Proc.devRef .tc main_arg6) = aW3 m c := by
  show StableHlo.after hostOps3 (W5 m ρ c) (Proc.devRef .tc main_arg6) = _
  after_results_simp
  exact b5_a6 m ρ c
theorem b6_a7 : W6 m ρ c (Proc.devRef .tc main_arg7) = aB3 m c := by
  show StableHlo.after hostOps3 (W5 m ρ c) (Proc.devRef .tc main_arg7) = _
  after_results_simp
  exact b5_a7 m ρ c

/-! ## Boundary 7: after the second closing region -/

/-- The second layer of the first. -/
theorem b7_v85 : W7 m ρ c (Proc.devRef .tc main_v85) = layer128 (layer128 (aX m c) (aE m c) (aW1 m c) (aB1 m c)) (aE m c) (aW2 m c) (aB2 m c) :=
  (W7_arr m ρ c 4).trans ((final3 (V6 m ρ) c).trans (by
    show close128 (W6 m ρ c (Proc.devRef .tc main_v83)) (W6 m ρ c (Proc.devRef .tc main_v45))
      (W6 m ρ c (Proc.devRef .tc main_v54)) (W6 m ρ c (Proc.devRef .tc main_v84)) = _
    rw [b6_v83, b6_v45, b6_v54, b6_v84, close128_casts]
    rfl))
theorem b7_v1 : W7 m ρ c (Proc.devRef .tc main_v1) = srcOf (aE m c) :=
  (W7_of_ne m ρ c main_v1 (by decide)).trans (b6_v1 m ρ c)
theorem b7_v3 : W7 m ρ c (Proc.devRef .tc main_v3) = dstOf (aE m c) :=
  (W7_of_ne m ρ c main_v3 (by decide)).trans (b6_v3 m ρ c)
theorem b7_a6 : W7 m ρ c (Proc.devRef .tc main_arg6) = aW3 m c :=
  (W7_of_ne m ρ c main_arg6 (by decide)).trans (b6_a6 m ρ c)
theorem b7_a7 : W7 m ρ c (Proc.devRef .tc main_arg7) = aB3 m c :=
  (W7_of_ne m ρ c main_arg7 (by decide)).trans (b6_a7 m ρ c)

end Cert.Gcn3.Walk

end
-- ==== Proof.Region4.lean ====
/-
  The third product region, from blocks to the whole array: the second layer's result against the 128 × 64 weight
  matrix, ten blocks of 5000 rows of 64 entries. A block's entry is the entry of the product of the whole arrays at the
  same row of the whole array, and the ten blocks tile the result.
-/
import proofs.«122045_j38611755991794_1_alg».proof.Proof.Graph
import proofs.«122045_j38611755991794_1_alg».proof.Proof.Blocks

set_option maxRecDepth 16384

noncomputable section

open scoped BigOperators

namespace Cert.Gcn3.Regions

open Idealize.ShloMosaic Idealize.ShloMosaic.TcCoe Idealize.SL.Sem Cert.KernelIdeal Cert.KernelIdeal.Gen Cert.Gcn3 Cert.Gcn3.Blocks
open Idealize.ShloMosaic.Pipeline (Dat)

variable (V : (c : Dev nD) → (b : Ref sig .tc) → Buf (Elt Ideal) ((c : Thread nD τ).loc b))

/-! ## Region 4: a product, block of 5000 rows by block -/

/-- Region 4's index maps over its ten points: the left factor's and the result's block move down with the point,
    the right factor is one block. -/
theorem pts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two whole arrays: row r of the block is row
    5000 t + r of the left factor against the whole right factor. -/
theorem flushed4 (c : Dev nD) (t : Fin cfg4.N) :
    (dat4 V c).flushed 2 t
      = ((cfg4.win 2).blk t).view.read (Elt Ideal) (prod64 (V c main_v85) (V c main_arg6)) := by
  show (cfg4.win 2).cut (grid4.coords t) ((dat4 V c).after 2 t) = _
  rw [after4_2]
  obtain ⟨e0, e1, e2, e3, e4, e5⟩ := pts4 t
  funext j
  show out4_2 (F := Ideal) (iblk4 V c 0 t) (iblk4 V c 1 t) j
    = prod64 (V c main_v85) (V c main_arg6) (((cfg4.win 2).blk t).view.emb j)
  refine (out4_2_apply _ _ j).trans ?_
  unfold prod64
  beta_reduce
  refine Finset.sum_congr rfl fun k _ => ?_
  have h0 : ((cfg4.win 0).blk t).view.emb (brow64 j k) = lrow64 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (bcol64 j k) = rcol64 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  have g0 : iblk4 V c 0 t (brow64 j k) = V c main_v85 (lrow64 (((cfg4.win 2).blk t).view.emb j) k) :=
    congrArg (V c main_v85) h0
  have g1 : iblk4 V c 1 t (bcol64 j k) = V c main_arg6 (rcol64 (((cfg4.win 2).blk t).view.emb j) k) :=
    congrArg (V c main_arg6) h1
  rw [g0, g1]

/-- An entry is in point `t`'s block iff each coordinate is in the block's range. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v86).slice (win4_2.rect t)).set ↔ _
  rw [View.set_slice_whole, Rect.mem_set_unit]
  exact Iff.rfl

/-- Every entry is in some point's block: row r is in block r / 5000. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have ht : (i 0).val / 5000 < cfg4.N := by show (i 0).val / 5000 < 10; omega
  obtain ⟨-, -, -, -, e4, e5⟩ := pts4 ⟨(i 0).val / 5000, ht⟩
  have e4' : win4_2.index ⟨(i 0).val / 5000, ht⟩ (0 : Fin 2) = (i 0).val / 5000 := e4
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    omega

/-- After region 4 its result array is the product of the two arrays it was entered with. -/
theorem final4 (c : Dev nD) : (dat4 V c).arrAt 2 cfg4.N = prod64 (V c main_v85) (V c main_arg6) :=
  (dat4 V c).arrAt_eq_of_cover 2 _ (fun t _ => flushed4 V c t) cover4

end Cert.Gcn3.Regions

end
-- ==== Proof.Region5.lean ====
/-
  The last closing region, from blocks to the whole array: 64 features and no cut at zero. An entry of a block reads the
  two matrices at that entry of the whole arrays, the column at the entry's row, the bias at the entry's feature; ten
  blocks of 5000 rows tile the result.
-/
import proofs.«122045_j38611755991794_1_alg».proof.Proof.Graph
import proofs.«122045_j38611755991794_1_alg».proof.Proof.Blocks
import proofs.«122045_j38611755991794_1_alg».proof.Proof.Close

set_option maxRecDepth 16384

noncomputable section

open scoped BigOperators

namespace Cert.Gcn3.Regions

open Idealize.ShloMosaic Idealize.ShloMosaic.TcCoe Idealize.SL.Sem Cert.KernelIdeal Cert.KernelIdeal.Gen Cert.Gcn3 Cert.Gcn3.Blocks
open Idealize.ShloMosaic.Pipeline (Dat)

variable (V : (c : Dev nD) → (b : Ref sig .tc) → Buf (Elt Ideal) ((c : Thread nD τ).loc b))

/-! ## Region 5: the closing step of a layer, block of 5000 rows by block -/

/-- Region 5's index maps over its ten points: the two matrices', the column's and the result's block move down with
    the point, the bias row is one block. -/
theorem pts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the closing step of the four whole arrays: an entry of the block reads
    the two matrices at the same entry of the whole arrays, the column at its row, the bias at its feature. -/
theorem flushed5 (c : Dev nD) (t : Fin cfg5.N) :
    (dat5 V c).flushed 4 t
      = ((cfg5.win 4).blk t).view.read (Elt Ideal) (close64 (V c main_v124) (V c main_v86) (V c main_v95) (V c main_v125)) := by
  show (cfg5.win 4).cut (grid5.coords t) ((dat5 V c).after 4 t) = _
  rw [after5_4]
  obtain ⟨e0, e1, e2, e3, e4, e5, e6, e7, e8, e9⟩ := pts5 t
  funext j
  show out5_4 (F := Ideal) (iblk5 V c 0 t) (iblk5 V c 1 t) (iblk5 V c 2 t) (iblk5 V c 3 t) j
    = close64 (V c main_v124) (V c main_v86) (V c main_v95) (V c main_v125) (((cfg5.win 4).blk t).view.emb j)
  refine (out5_4_apply _ _ _ _ j).trans ?_
  unfold close64
  show FloatOps.addf (F := Ideal) (φ := .f32) (FloatOps.addf (F := Ideal) (φ := .f32) ((V c main_v124 : Mat S50000x64) (((cfg5.win 0).blk t).view.emb j)) (FloatOps.mulf (F := Ideal) (φ := .f32) ((V c main_v86 : Mat S50000x64) (((cfg5.win 1).blk t).view.emb j)) ((V c main_v95 : Mat S50000x1) (((cfg5.win 2).blk t).view.emb (inCol64 j))))) ((V c main_v125 : Mat S1x64) (((cfg5.win 3).blk t).view.emb (inRow64 j)))
    = FloatOps.addf (F := Ideal) (φ := .f32) (FloatOps.addf (F := Ideal) (φ := .f32) ((V c main_v124 : Mat S50000x64) (((cfg5.win 4).blk t).view.emb j)) (FloatOps.mulf (F := Ideal) (φ := .f32) ((V c main_v86 : Mat S50000x64) (((cfg5.win 4).blk t).view.emb j)) ((V c main_v95 : Mat S50000x1) (nodeCol64 (((cfg5.win 4).blk t).view.emb j))))) ((V c main_v125 : Mat S1x64) (featRow64 (((cfg5.win 4).blk t).view.emb j)))
  have h0 : (((cfg5.win 0).blk t).view.emb j) = (((cfg5.win 4).blk t).view.emb j) := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  have h1 : (((cfg5.win 1).blk t).view.emb j) = (((cfg5.win 4).blk t).view.emb j) := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  have h2 : (((cfg5.win 2).blk t).view.emb (inCol64 j)) = nodeCol64 (((cfg5.win 4).blk t).view.emb j) := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : (((cfg5.win 3).blk t).view.emb (inRow64 j)) = featRow64 (((cfg5.win 4).blk t).view.emb j) := by
    funext a; apply Fin.ext
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega
  rw [h0, h1, h2, h3]

/-- An entry is in point `t`'s block iff each coordinate is in the block's range. -/
theorem mem_blk5 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v126).slice (win5_4.rect t)).set ↔ _
  rw [View.set_slice_whole, Rect.mem_set_unit]
  exact Iff.rfl

/-- Every entry is in some point's block: row r is in block r / 5000. -/
theorem cover5 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  have ht : (i 0).val / 5000 < cfg5.N := by show (i 0).val / 5000 < 10; omega
  obtain ⟨-, -, -, -, -, -, -, -, e8, e9⟩ := pts5 ⟨(i 0).val / 5000, ht⟩
  have e8' : win5_4.index ⟨(i 0).val / 5000, ht⟩ (0 : Fin 2) = (i 0).val / 5000 := e8
  refine ⟨⟨(i 0).val / 5000, ht⟩, flush5_4 _, ?_⟩
  rw [mem_blk5]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    omega
  | ⟨1, _⟩ =>
    show win5_4.index ⟨(i 0).val / 5000, ht⟩ (1 : Fin 2) * 64 ≤ (i 1).val ∧ (i 1).val < win5_4.index ⟨(i 0).val / 5000, ht⟩ (1 : Fin 2) * 64 + 64
    omega

/-- After region 5 its result array is the closing step of the four arrays it was entered with. -/
theorem final5 (c : Dev nD) :
    (dat5 V c).arrAt 4 cfg5.N = close64 (V c main_v124) (V c main_v86) (V c main_v95) (V c main_v125) :=
  (dat5 V c).arrAt_eq_of_cover 4 _ (fun t _ => flushed5 V c t) cover5

end Cert.Gcn3.Regions

end
-- ==== Proof.WalkC.lean ====
/-
  The kernel program's buffers, boundary by boundary: the third layer and the result.

  Boundary 8 (after the third product region): the second layer's result times the third weight matrix. Boundary 9
  (after the last stretch): that product spread along the messages, one over the degree as a one-column matrix, the
  third bias as a one-row matrix. Boundary 10 (after the last closing region): the result buffer holds `net` of the
  arguments as launched.
-/
import proofs.«122045_j38611755991794_1_alg».proof.Proof.WalkB
import proofs.«122045_j38611755991794_1_alg».proof.Proof.Region4
import proofs.«122045_j38611755991794_1_alg».proof.Proof.Region5
import Idealize.ShloMosaic.Lib.StableHlo.Run

set_option maxRecDepth 16384

noncomputable section

namespace Cert.Gcn3.Walk

open Idealize.ShloMosaic Idealize.ShloMosaic.TcCoe Idealize.SL.Sem Idealize.ShloMosaic.StableHlo
open Cert.KernelIdeal Cert.KernelIdeal.Gen Cert.Gcn3 Cert.Gcn3.Regions

variable (m : (ℓ : Loc nD τ sig) → Buf (Elt Ideal) ℓ) (ρ : Dev nD → PrngReg) (c : Dev nD)

/-! ## Boundary 8: after the third product region -/

theorem b8_v86 : W8 m ρ c (Proc.devRef .tc main_v86) = prod64 (layer128 (layer128 (aX m c) (aE m c) (aW1 m c) (aB1 m c)) (aE m c) (aW2 m c) (aB2 m c)) (aW3 m c) :=
  (W8_arr m ρ c 2).trans ((final4 (V7 m ρ) c).trans (congrArg₂ prod64 (b7_v85 m ρ c) (b7_a6 m ρ c)))
theorem b8_v1 : W8 m ρ c (Proc.devRef .tc main_v1) = srcOf (aE m c) :=
  (W8_of_ne m ρ c main_v1 (by decide)).trans (b7_v1 m ρ c)
theorem b8_v3 : W8 m ρ c (Proc.devRef .tc main_v3) = dstOf (aE m c) :=
  (W8_of_ne m ρ c main_v3 (by decide)).trans (b7_v3 m ρ c)
theorem b8_a7 : W8 m ρ c (Proc.devRef .tc main_arg7) = aB3 m c :=
  (W8_of_ne m ρ c main_arg7 (by decide)).trans (b7_a7 m ρ c)

/-! ## Boundary 9: after the last stretch -/

theorem b9_v124 : W9 m ρ c (Proc.devRef .tc main_v124)
    = spread64 (prod64 (layer128 (layer128 (aX m c) (aE m c) (aW1 m c) (aB1 m c)) (aE m c) (aW2 m c) (aB2 m c)) (aW3 m c)) (srcOf (aE m c)) (dstOf (aE m c)) := by
  show StableHlo.after hostOps5 (W8 m ρ c) (Proc.devRef .tc main_v124) = _
  after_results_simp
  rw [b8_v86, b8_v1, b8_v3]
  rfl
theorem b9_v95 : W9 m ρ c (Proc.devRef .tc main_v95)
    = shapeCast S50000x1 (invDegree (dstOf (aE m c))) Facts₀.shapeCasts_S50000_S50000x1 := by
  show StableHlo.after hostOps5 (W8 m ρ c) (Proc.devRef .tc main_v95) = _
  after_results_simp
  rw [b8_v3]
  rfl
theorem b9_v125 : W9 m ρ c (Proc.devRef .tc main_v125) = shapeCast S1x64 (aB3 m c) Facts₀.shapeCasts_S64_S1x64 := by
  show StableHlo.after hostOps5 (W8 m ρ c) (Proc.devRef .tc main_v125) = _
  after_results_simp
  rw [b8_a7]
  rfl
theorem b9_v86 : W9 m ρ c (Proc.devRef .tc main_v86) = prod64 (layer128 (layer128 (aX m c) (aE m c) (aW1 m c) (aB1 m c)) (aE m c) (aW2 m c) (aB2 m c)) (aW3 m c) := by
  show StableHlo.after hostOps5 (W8 m ρ c) (Proc.devRef .tc main_v86) = _
  after_results_simp
  exact b8_v86 m ρ c

/-! ## Boundary 10: after the last closing region -/

/-- The result buffer at the last boundary is `net` of the arguments as launched. -/
theorem result_eq : W10 m ρ c (Proc.devRef .tc main_v126)
    = net (aX m c) (aE m c) (aW1 m c) (aB1 m c) (aW2 m c) (aB2 m c) (aW3 m c) (aB3 m c) :=
  (W10_arr m ρ c 4).trans ((final5 (V9 m ρ) c).trans (by
    show close64 (W9 m ρ c (Proc.devRef .tc main_v124)) (W9 m ρ c (Proc.devRef .tc main_v86))
      (W9 m ρ c (Proc.devRef .tc main_v95)) (W9 m ρ c (Proc.devRef .tc main_v125)) = _
    rw [b9_v124, b9_v86, b9_v95, b9_v125, close64_casts]
    rfl))

end Cert.Gcn3.Walk

end
-- ==== Proof.RefNet.lean ====
/-
  The reference computes `net`.

  Its program is a straight line of whole-array operations; stage by stage it is the functions of Graph.lean:
  the two rows of the message table, the degree, one over the degree, the weighted spreading of rows along the
  messages (all of these the same operations applied to the same operands, so equal as they stand), the matrix
  product (a sum over the 128 contracted positions, entry by entry) and the closing step of a layer — entry (r, j)
  is (spread + h * (1/degree) at node r) + bias at feature j, where the reference first repeats the vector over the
  nodes along the columns and the bias along the rows; read at an entry, both repeats pick the node's, resp. the
  feature's, element.
-/
import proofs.«122045_j38611755991794_1_alg».proof.Proof.Graph
import proofs.«122045_j38611755991794_1_alg».proof.Proof.Gen.ReferenceIdeal.Read

noncomputable section

namespace Cert.Gcn3.Ref

open Idealize.ShloMosaic Idealize.ShloMosaic.TcCoe Cert.KernelIdeal Cert.Gcn3 Cert.ReferenceIdeal.Read

/-! ## The message table, degrees -/

theorem src_eq (e : Words S2x640000) : val_main_v1 (F := Ideal) e = srcOf e := rfl
theorem dst_eq (e : Words S2x640000) : val_main_v3 (F := Ideal) e = dstOf e := rfl

theorem inv1 (e : Words S2x640000) : val_main_v41 (F := Ideal) e = invDegree (dstOf e) := rfl
theorem inv2 (e : Words S2x640000) : val_main_v87 (F := Ideal) e = invDegree (dstOf e) := rfl
theorem inv3 (e : Words S2x640000) : val_main_v133 (F := Ideal) e = invDegree (dstOf e) := rfl

/-! ## Layer 1 -/

theorem prod1 (x : Mat S50000x128) (w : Mat S128x128) : val_main_v4 (F := Ideal) x w = prod128 x w := by
  funext i
  rw [val_main_v4_apply]
  rfl

theorem spread1 (x : Mat S50000x128) (e : Words S2x640000) (w : Mat S128x128) :
    val_main_v39 (F := Ideal) x e w = spread128 (val_main_v4 (F := Ideal) x w) (srcOf e) (dstOf e) := rfl

theorem node1 (i : Cert.ReferenceIdeal.S50000x128.Idx) : idx_main_v42 (idx_main_v43 i) = nodeOf i :=
  funext fun a => Fin.ext (by match a with | ⟨0, _⟩ => rfl)
theorem feat1 (i : Cert.ReferenceIdeal.S50000x128.Idx) : idx_main_v46 (idx_main_v47 i) = featOf i :=
  funext fun a => Fin.ext (by match a with | ⟨0, _⟩ => rfl)

theorem out1 (x : Mat S50000x128) (e : Words S2x640000) (w : Mat S128x128) (b : Mat S128) :
    val_main_v49 (F := Ideal) x e w b
      = mix128 (val_main_v39 (F := Ideal) x e w) (val_main_v4 (F := Ideal) x w) (val_main_v41 (F := Ideal) e) b := by
  funext i
  rw [val_main_v49_apply, val_main_v48_apply, val_main_v45_apply, val_main_v44_apply, val_main_v43_apply, val_main_v42_apply,
    val_main_v47_apply, val_main_v46_apply, val_main_call0_v0_apply, val_main_call0_cst_apply, node1, feat1]
  rfl

theorem layer1 (x : Mat S50000x128) (e : Words S2x640000) (w : Mat S128x128) (b : Mat S128) :
    val_main_v49 (F := Ideal) x e w b = layer128 x e w b := by
  rw [out1, spread1, prod1, inv1]
  rfl

/-! ## Layer 2 -/

theorem prod2 (x : Mat S50000x128) (e : Words S2x640000) (w1 : Mat S128x128) (b1 : Mat S128) (w2 : Mat S128x128) :
    val_main_v50 (F := Ideal) x e w1 b1 w2 = prod128 (val_main_v49 (F := Ideal) x e w1 b1) w2 := by
  funext i
  rw [val_main_v50_apply]
  rfl

theorem spread2 (x : Mat S50000x128) (e : Words S2x640000) (w1 : Mat S128x128) (b1 : Mat S128) (w2 : Mat S128x128) :
    val_main_v85 (F := Ideal) x e w1 b1 w2 = spread128 (val_main_v50 (F := Ideal) x e w1 b1 w2) (srcOf e) (dstOf e) := rfl

theorem node2 (i : Cert.ReferenceIdeal.S50000x128.Idx) : idx_main_v88 (idx_main_v89 i) = nodeOf i :=
  funext fun a => Fin.ext (by match a with | ⟨0, _⟩ => rfl)
theorem feat2 (i : Cert.ReferenceIdeal.S50000x128.Idx) : idx_main_v92 (idx_main_v93 i) = featOf i :=
  funext fun a => Fin.ext (by match a with | ⟨0, _⟩ => rfl)

theorem out2 (x : Mat S50000x128) (e : Words S2x640000) (w1 : Mat S128x128) (b1 : Mat S128) (w2 : Mat S128x128) (b2 : Mat S128) :
    val_main_v95 (F := Ideal) x e w1 b1 w2 b2
      = mix128 (val_main_v85 (F := Ideal) x e w1 b1 w2) (val_main_v50 (F := Ideal) x e w1 b1 w2) (val_main_v87 (F := Ideal) e) b2 := by
  funext i
  rw [val_main_v95_apply, val_main_v94_apply, val_main_v91_apply, val_main_v90_apply, val_main_v89_apply, val_main_v88_apply,
    val_main_v93_apply, val_main_v92_apply, val_main_call1_v0_apply, val_main_call1_cst_apply, node2, feat2]
  rfl

theorem layer2 (x : Mat S50000x128) (e : Words S2x640000) (w1 : Mat S128x128) (b1 : Mat S128) (w2 : Mat S128x128) (b2 : Mat S128) :
    val_main_v95 (F := Ideal) x e w1 b1 w2 b2 = layer128 (layer128 x e w1 b1) e w2 b2 := by
  rw [out2, spread2, prod2, inv2, layer1]
  rfl

/-! ## Layer 3 -/

theorem prod3 (x : Mat S50000x128) (e : Words S2x640000) (w1 : Mat S128x128) (b1 : Mat S128) (w2 : Mat S128x128) (b2 : Mat S128)
    (w3 : Mat S128x64) :
    val_main_v96 (F := Ideal) x e w1 b1 w2 b2 w3 = prod64 (val_main_v95 (F := Ideal) x e w1 b1 w2 b2) w3 := by
  funext i
  rw [val_main_v96_apply]
  rfl

theorem spread3 (x : Mat S50000x128) (e : Words S2x640000) (w1 : Mat S128x128) (b1 : Mat S128) (w2 : Mat S128x128) (b2 : Mat S128)
    (w3 : Mat S128x64) :
    val_main_v131 (F := Ideal) x e w1 b1 w2 b2 w3 = spread64 (val_main_v96 (F := Ideal) x e w1 b1 w2 b2 w3) (srcOf e) (dstOf e) := rfl

theorem node3 (i : Cert.ReferenceIdeal.S50000x64.Idx) : idx_main_v134 (idx_main_v135 i) = nodeOf64 i :=
  funext fun a => Fin.ext (by match a with | ⟨0, _⟩ => rfl)
theorem feat3 (i : Cert.ReferenceIdeal.S50000x64.Idx) : idx_main_v138 (idx_main_v139 i) = featOf64 i :=
  funext fun a => Fin.ext (by match a with | ⟨0, _⟩ => rfl)

theorem out3 (x : Mat S50000x128) (e : Words S2x640000) (w1 : Mat S128x128) (b1 : Mat S128) (w2 : Mat S128x128) (b2 : Mat S128)
    (w3 : Mat S128x64) (b3 : Mat S64) :
    val_main_v140 (F := Ideal) x e w1 b1 w2 b2 w3 b3
      = mix64 (val_main_v131 (F := Ideal) x e w1 b1 w2 b2 w3) (val_main_v96 (F := Ideal) x e w1 b1 w2 b2 w3)
          (val_main_v133 (F := Ideal) e) b3 := by
  funext i
  rw [val_main_v140_apply, val_main_v137_apply, val_main_v136_apply, val_main_v135_apply, val_main_v134_apply,
    val_main_v139_apply, val_main_v138_apply, node3, feat3]
  rfl

/-- The reference's result is `net` of its arguments. -/
theorem result_eq (x : Mat S50000x128) (e : Words S2x640000) (w1 : Mat S128x128) (b1 : Mat S128) (w2 : Mat S128x128) (b2 : Mat S128)
    (w3 : Mat S128x64) (b3 : Mat S64) :
    val_main_v140 (F := Ideal) x e w1 b1 w2 b2 w3 b3 = net x e w1 b1 w2 b2 w3 b3 := by
  rw [out3, spread3, prod3, inv3, layer2]
  rfl

end Cert.Gcn3.Ref

end
-- ==== Proof.lean ====
/-
  Three graph-convolution layers: a kernel program of six regions against its reference, on the extended reals.

  Each layer forms h = X W, spreads the rows of h along the messages with the weight rsqrt(degree source) *
  rsqrt(degree target) into the target rows, and closes with (spread + h / degree) + bias, cut at zero in the first two
  layers. The kernel program computes X W and the closing step in regions, 5000 rows at a time, re-typing the factors
  on the way into the product (a change of float format is the identity on the extended reals) and accumulating into
  zeros; the reference computes X W with one product and the closing step with whole-array operations. Everything
  between — the degrees, the weights, the gathers and the scatter-adds — is the same line of operations on the same
  operands in both programs.

  So both results are one function, `net` (Graph.lean), of the arguments: the kernel program's by following its buffers
  from boundary to boundary (KernelRun.lean, WalkA/B/C.lean, over the regions' whole-array values Region0 … Region5.lean
  and the bodies' blocks Blocks.lean), the reference's stage by stage (RefNet.lean). No law of arithmetic beyond
  0 + s = s is used, and the finiteness of the inputs is not needed.

  The three frames: the two kernel programs' are the generated frame proofs; the reference has no region and its frame
  is its run with the result dropped. The idealization rewrote no operation, so there is nothing to preserve.
-/
import proofs.«122045_j38611755991794_1_alg».proof.Defs
import proofs.«122045_j38611755991794_1_alg».proof.Proof.Gen.Kernel
import proofs.«122045_j38611755991794_1_alg».proof.Proof.Gen.Kernel.Skeleton
import proofs.«122045_j38611755991794_1_alg».proof.Proof.Gen.Kernel.Launch
import proofs.«122045_j38611755991794_1_alg».proof.Proof.Gen.Kernel.Points
import proofs.«122045_j38611755991794_1_alg».proof.Proof.Gen.Kernel.Frame
import proofs.«122045_j38611755991794_1_alg».proof.Proof.Gen.KernelIdeal
import proofs.«122045_j38611755991794_1_alg».proof.Proof.Gen.KernelIdeal.Skeleton
import proofs.«122045_j38611755991794_1_alg».proof.Proof.Gen.KernelIdeal.Launch
import proofs.«122045_j38611755991794_1_alg».proof.Proof.Gen.KernelIdeal.Points
import proofs.«122045_j38611755991794_1_alg».proof.Proof.Gen.KernelIdeal.Frame
import proofs.«122045_j38611755991794_1_alg».proof.Proof.Gen.ReferenceIdeal
import proofs.«122045_j38611755991794_1_alg».proof.Proof.Gen.Pre_finite_inputs
import proofs.«122045_j38611755991794_1_alg».proof.Proof.Gen.ReferenceIdeal.Run
import proofs.«122045_j38611755991794_1_alg».proof.Proof.Gen.ReferenceIdeal.Read
import proofs.«122045_j38611755991794_1_alg».proof.Proof.KernelRun
import proofs.«122045_j38611755991794_1_alg».proof.Proof.WalkC
import proofs.«122045_j38611755991794_1_alg».proof.Proof.RefNet
import Idealize.ShloMosaic.Adequacy
import Idealize.ShloMosaic.Init

noncomputable section

namespace Cert.Proof

open Idealize.ShloMosaic Idealize.SL.Sem Cert.Kernel

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's run with its result read: every weakly fair execution ends with the result buffer at `net` of
    the arguments as launched, and the arguments unchanged. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v126)
          = Cert.Gcn3.net (Cert.Gcn3.Walk.aX m c) (Cert.Gcn3.Walk.aE m c) (Cert.Gcn3.Walk.aW1 m c) (Cert.Gcn3.Walk.aB1 m c)
              (Cert.Gcn3.Walk.aW2 m c) (Cert.Gcn3.Walk.aB2 m c) (Cert.Gcn3.Walk.aW3 m c) (Cert.Gcn3.Walk.aB3 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c).1.trans (Cert.Gcn3.Walk.result_eq m ρ c), (h c).2⟩)
    (Cert.KernelIdeal.Named.run (F := Ideal) m ρ)

/-- Both programs, run from memories that agree on the arguments, end at `net` of those arguments. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v140_eq m' c).trans ((Cert.Gcn3.Ref.result_eq _ _ _ _ _ _ _ _).trans ?_)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
